-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S8192x8192 : Shape := ⟨2, ![8192, 8192]⟩
abbrev S128x256 : Shape := ⟨2, ![128, 256]⟩
abbrev S128 : Shape := ⟨1, ![128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192 : S_.BroadcastsInDim S8192 (![] : Fin 0 → Fin S8192.rank)
  reducesTo_S8192_S_d0 : S8192.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x256 .f32) (main_arg7 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8192x256 .f32) (main_arg1 : FVec F S8192x256 .f32) (main_arg2 : FVec F S8192 .f32) (main_arg3 : IVec S8192x8192 1) (main_arg4 : FVec F S128x256 .f32) (main_arg5 : FVec F S128 .f32) (main_arg6 : FVec F S128x256 .f32) (main_arg7 : FVec F S128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S8192x256 : Shape := ⟨2, ![8192, 256]⟩
abbrev S8192 : Shape := ⟨1, ![8192]⟩
abbrev S8192x8192 : Shape := ⟨2, ![8192, 8192]⟩
abbrev S128x256 : Shape := ⟨2, ![128, 256]⟩
abbrev S128 : Shape := ⟨1, ![128]⟩
abbrev S2048x256 : Shape := ⟨2, ![2048, 256]⟩
abbrev S512x256 : Shape := ⟨2, ![512, 256]⟩
abbrev S512 : Shape := ⟨1, ![512]⟩
abbrev S2048x512 : Shape := ⟨2, ![2048, 512]⟩
abbrev S2048x1 : Shape := ⟨2, ![2048, 1]⟩
abbrev S2048x128 : Shape := ⟨2, ![2048, 128]⟩
abbrev S1x128 : Shape := ⟨2, ![1, 128]⟩
abbrev S512x128 : Shape := ⟨2, ![512, 128]⟩
abbrev S512x1 : Shape := ⟨2, ![512, 1]⟩
abbrev S2048 : Shape := ⟨1, ![2048]⟩

abbrev nBuf : Space → Nat
  | .hbm => 10
  | .vmem => 17
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192, .f32⟩
  | .hbm, ⟨3, _⟩ => ⟨S8192x8192, .i1⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S8192x8192, .i32⟩
  | .hbm, ⟨9, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S512x256, .f32⟩
  | .local _ .vmem, ⟨3, _⟩ => ⟨S512x256, .f32⟩
  | .local _ .vmem, ⟨4, _⟩ => ⟨S512, .f32⟩
  | .local _ .vmem, ⟨5, _⟩ => ⟨S512, .f32⟩
  | .local _ .vmem, ⟨6, _⟩ => ⟨S128x256, .f32⟩
  | .local _ .vmem, ⟨7, _⟩ => ⟨S128, .f32⟩
  | .local _ .vmem, ⟨8, _⟩ => ⟨S128x256, .f32⟩
  | .local _ .vmem, ⟨9, _⟩ => ⟨S128, .f32⟩
  | .local _ .vmem, ⟨10, _⟩ => ⟨S2048x512, .i32⟩
  | .local _ .vmem, ⟨11, _⟩ => ⟨S2048x512, .i32⟩
  | .local _ .vmem, ⟨12, _⟩ => ⟨S2048x256, .f32⟩
  | .local _ .vmem, ⟨13, _⟩ => ⟨S2048x256, .f32⟩
  | .local _ .vmem, ⟨14, _⟩ => ⟨S2048x1, .f32⟩
  | .local _ .vmem, ⟨15, _⟩ => ⟨S2048x1, .f32⟩
  | .local _ .vmem, ⟨16, _⟩ => ⟨S2048x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  natLt_1_32 : 1 < 32
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S512x256_S512x256_0_0 : ∀ a, (![0, 0] : Fin 2 → Nat) a + S512x256.size a ≤ S512x256.size a
  h_S512x256 : 0 < S512x256.numel
  broadcasts_S1x128_S512x128 : S1x128.Broadcasts S512x128
  inb_S512_S512_0 : ∀ a, (![0] : Fin 1 → Nat) a + S512.size a ≤ S512.size a
  h_S512 : 0 < S512.numel
  shapeCasts_S512_S512x1 : S512.ShapeCasts S512x1
  broadcasts_S512x1_S512x256 : S512x1.Broadcasts S512x256
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  shapeCasts_S2048x256_S2048x256 : S2048x256.ShapeCasts S2048x256
  broadcasts_S2048x1_S2048x256 : S2048x1.Broadcasts S2048x256
  dot_S2048x256_S128x256_S2048x128_1_1_0_0_n_n_wf : DotDims.WF S2048x256 S128x256 S2048x128 [1] [1] [0] [0] [] []
  dot_S512x256_S128x256_S512x128_1_1_0_0_n_n_wf : DotDims.WF S512x256 S128x256 S512x128 [1] [1] [0] [0] [] []
  dot_S2048x128_S512x128_S2048x512_1_1_0_0_n_n_wf : DotDims.WF S2048x128 S512x128 S2048x512 [1] [1] [0] [0] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .f32 = 32 ∨ (Rect.block (s := S8192) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S8192x8192.size a
  hwx0_7 : ∀ i : grid0.Coords, EltTy.bits .i32 = 32 ∨ (Rect.block (s := S8192x8192) S2048x512.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S8192x256.size a
  hwx0_8 : ∀ i : grid0.Coords, EltTy.bits .f32 = 32 ∨ (Rect.block (s := S8192x256) S2048x256.size (cc0_transform_8 i) (hinb0_8 i)).WholeWords (EltTy.packing .f32)

variable [Facts₀]

def dot_S2048x256_S128x256_S2048x128_1_1_0_0_n_n : DotDims S2048x256 S128x256 S2048x128 where
  lhsContracting := [1]
  rhsContracting := [1]
  lhsNonContracting := [0]
  rhsNonContracting := [0]
  lhsBatch := []
  rhsBatch := []
  wf := dot_S2048x256_S128x256_S2048x128_1_1_0_0_n_n_wf
def dot_S512x256_S128x256_S512x128_1_1_0_0_n_n : DotDims S512x256 S128x256 S512x128 where
  lhsContracting := [1]
  rhsContracting := [1]
  lhsNonContracting := [0]
  rhsNonContracting := [0]
  lhsBatch := []
  rhsBatch := []
  wf := dot_S512x256_S128x256_S512x128_1_1_0_0_n_n_wf
def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S8192x8192 : Shape := ⟨2, ![8192, 8192]⟩
abbrev S128x256 : Shape := ⟨2, ![128, 256]⟩
abbrev S128 : Shape := ⟨1, ![128]⟩
abbrev S256x128 : Shape := ⟨2, ![256, 128]⟩
abbrev S8192x128 : Shape := ⟨2, ![8192, 128]⟩
abbrev S1x128 : Shape := ⟨2, ![1, 128]⟩
abbrev S_ : Shape := ⟨0, ![]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192, .f32⟩
  | .hbm, ⟨3, _⟩ => ⟨S8192x8192, .i1⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S256x128, .f32⟩
  | .hbm, ⟨9, _⟩ => ⟨S8192x128, .f32⟩
  | .hbm, ⟨10, _⟩ => ⟨S1x128, .f32⟩
  | .hbm, ⟨11, _⟩ => ⟨S8192x128, .f32⟩
  | .hbm, ⟨12, _⟩ => ⟨S8192x128, .f32⟩
  | .hbm, ⟨13, _⟩ => ⟨S256x128, .f32⟩
  | .hbm, ⟨14, _⟩ => ⟨S8192x128, .f32⟩
  | .hbm, ⟨15, _⟩ => ⟨S1x128, .f32⟩
  | .hbm, ⟨16, _⟩ => ⟨S8192x128, .f32⟩
  | .hbm, ⟨17, _⟩ => ⟨S8192x128, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x1, .f32⟩
  | .hbm, ⟨41, _⟩ => ⟨S8192x256, .f32⟩
  | .hbm, ⟨42, _⟩ => ⟨S8192x256, .f32⟩
  | .hbm, ⟨43, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192x1_S8192x256_0_1 : S8192x1.BroadcastsInDim S8192x256 (![0, 1] : Fin 2 → Fin S8192x256.rank)
  dot_S8192x256_S256x128_S8192x128_1_0_0_1_n_n_wf : DotDims.WF S8192x256 S256x128 S8192x128 [1] [0] [0] [1] [] []
  dot_S8192x128_S8192x128_S8192x8192_1_1_0_0_n_n_wf : DotDims.WF S8192x128 S8192x128 S8192x8192 [1] [1] [0] [0] [] []
  dot_S8192x8192_S8192x256_S8192x256_1_0_0_1_n_n_wf : DotDims.WF S8192x8192 S8192x256 S8192x256 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Pieces.lean ====
import proofs.«169537_j2972117369444_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-! ## A middle step: the carried state is read, one batch of keys is absorbed, the state is stored back -/

/-- After a middle step the running maximum is the larger of the old one and the batch's row maxima. -/
theorem max_B (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512 .f32) (harg4 : arg4.IsWhole) (arg5 : Memref sig .tc .vmem S128x256 .f32) (harg5 : arg5.IsWhole) (arg6 : Memref sig .tc .vmem S128 .f32) (harg6 : arg6.IsWhole) (arg7 : Memref sig .tc .vmem S128x256 .f32) (harg7 : arg7.IsWhole) (arg8 : Memref sig .tc .vmem S128 .f32) (harg8 : arg8.IsWhole) (arg9 : Memref sig .tc .vmem S2048x512 .i32) (harg9 : arg9.IsWhole) (arg10 : Memref sig .tc .vmem S2048x256 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (hc0 : ¬cond0_0 i) (hc1 : ¬cond0_1 i)
    (x0 : Vec F S2048x256 .f32) (x1 : Vec F S512x256 .f32) (x2 : Vec F S512 .f32) (x3 : Vec F S128x256 .f32) (x4 : Vec F S128 .f32) (x5 : Vec F S128x256 .f32) (x6 : Vec F S128 .f32) (x7 : Vec F S2048x512 .i32) (xo8 : Vec F S2048x256 .f32) (xs0 : Vec F S2048x1 .f32) (xs1 : Vec F S2048x1 .f32) (xs2 : Vec F S2048x128 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo8 xs0 xs1 xs2 = k0_pay3 (k0_pay11 x1 x5 x6 xs2 x7 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo8 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.ld_unit_zero (S := S2048x256) hz2, View.ld_unit_zero (S := S512x256) hz2,
    View.ld_unit_zero (S := S512) hz1, View.ld_unit_zero (S := S128x256) hz2, View.ld_unit_zero (S := S128) hz1,
    View.ld_unit_zero (S := S2048x512) hz2, View.ld_unit_zero (S := S2048x1) hz2, View.ld_unit_zero (S := S2048x128) hz2]

/-- After a middle step the normaliser is the old one rescaled plus the batch's weights summed along each row. -/
theorem den_B (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512 .f32) (harg4 : arg4.IsWhole) (arg5 : Memref sig .tc .vmem S128x256 .f32) (harg5 : arg5.IsWhole) (arg6 : Memref sig .tc .vmem S128 .f32) (harg6 : arg6.IsWhole) (arg7 : Memref sig .tc .vmem S128x256 .f32) (harg7 : arg7.IsWhole) (arg8 : Memref sig .tc .vmem S128 .f32) (harg8 : arg8.IsWhole) (arg9 : Memref sig .tc .vmem S2048x512 .i32) (harg9 : arg9.IsWhole) (arg10 : Memref sig .tc .vmem S2048x256 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (hc0 : ¬cond0_0 i) (hc1 : ¬cond0_1 i)
    (x0 : Vec F S2048x256 .f32) (x1 : Vec F S512x256 .f32) (x2 : Vec F S512 .f32) (x3 : Vec F S128x256 .f32) (x4 : Vec F S128 .f32) (x5 : Vec F S128x256 .f32) (x6 : Vec F S128 .f32) (x7 : Vec F S2048x512 .i32) (xo8 : Vec F S2048x256 .f32) (xs0 : Vec F S2048x1 .f32) (xs1 : Vec F S2048x1 .f32) (xs2 : Vec F S2048x128 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo8 xs0 xs1 xs2 = k0_pay1 (k0_pay12 x1 x5 x6 xs2 x7 xs0) (k0_pay13 x1 x5 x6 xs2 x7 xs0) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo8 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.ld_unit_zero (S := S2048x256) hz2, View.ld_unit_zero (S := S512x256) hz2,
    View.ld_unit_zero (S := S512) hz1, View.ld_unit_zero (S := S128x256) hz2, View.ld_unit_zero (S := S128) hz1,
    View.ld_unit_zero (S := S2048x512) hz2, View.ld_unit_zero (S := S2048x1) hz2, View.ld_unit_zero (S := S2048x128) hz2]

/-- After a middle step the weighted sum is the old one rescaled plus the batch's weights times its values. -/
theorem num_B (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512 .f32) (harg4 : arg4.IsWhole) (arg5 : Memref sig .tc .vmem S128x256 .f32) (harg5 : arg5.IsWhole) (arg6 : Memref sig .tc .vmem S128 .f32) (harg6 : arg6.IsWhole) (arg7 : Memref sig .tc .vmem S128x256 .f32) (harg7 : arg7.IsWhole) (arg8 : Memref sig .tc .vmem S128 .f32) (harg8 : arg8.IsWhole) (arg9 : Memref sig .tc .vmem S2048x512 .i32) (harg9 : arg9.IsWhole) (arg10 : Memref sig .tc .vmem S2048x256 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (hc0 : ¬cond0_0 i) (hc1 : ¬cond0_1 i)
    (x0 : Vec F S2048x256 .f32) (x1 : Vec F S512x256 .f32) (x2 : Vec F S512 .f32) (x3 : Vec F S128x256 .f32) (x4 : Vec F S128 .f32) (x5 : Vec F S128x256 .f32) (x6 : Vec F S128 .f32) (x7 : Vec F S2048x512 .i32) (xo8 : Vec F S2048x256 .f32) (xs0 : Vec F S2048x1 .f32) (xs1 : Vec F S2048x1 .f32) (xs2 : Vec F S2048x128 .f32) :
    out0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo8 xs0 xs1 xs2 = k0_pay2 (k0_pay9 x1 x2) (k0_pay12 x1 x5 x6 xs2 x7 xs0) (k0_pay13 x1 x5 x6 xs2 x7 xs0) xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo8 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.ld_unit_zero (S := S2048x256) hz2, View.ld_unit_zero (S := S512x256) hz2,
    View.ld_unit_zero (S := S512) hz1, View.ld_unit_zero (S := S128x256) hz2, View.ld_unit_zero (S := S128) hz1,
    View.ld_unit_zero (S := S2048x512) hz2, View.ld_unit_zero (S := S2048x1) hz2, View.ld_unit_zero (S := S2048x128) hz2]

/-! ## The last step: the same, and then the weighted sum is divided by the normaliser -/

/-- The last step leaves the running maximum as a middle step does. -/
theorem max_C (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512 .f32) (harg4 : arg4.IsWhole) (arg5 : Memref sig .tc .vmem S128x256 .f32) (harg5 : arg5.IsWhole) (arg6 : Memref sig .tc .vmem S128 .f32) (harg6 : arg6.IsWhole) (arg7 : Memref sig .tc .vmem S128x256 .f32) (harg7 : arg7.IsWhole) (arg8 : Memref sig .tc .vmem S128 .f32) (harg8 : arg8.IsWhole) (arg9 : Memref sig .tc .vmem S2048x512 .i32) (harg9 : arg9.IsWhole) (arg10 : Memref sig .tc .vmem S2048x256 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (hc0 : ¬cond0_0 i) (hc1 : cond0_1 i)
    (x0 : Vec F S2048x256 .f32) (x1 : Vec F S512x256 .f32) (x2 : Vec F S512 .f32) (x3 : Vec F S128x256 .f32) (x4 : Vec F S128 .f32) (x5 : Vec F S128x256 .f32) (x6 : Vec F S128 .f32) (x7 : Vec F S2048x512 .i32) (xo8 : Vec F S2048x256 .f32) (xs0 : Vec F S2048x1 .f32) (xs1 : Vec F S2048x1 .f32) (xs2 : Vec F S2048x128 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo8 xs0 xs1 xs2 = k0_pay3 (k0_pay11 x1 x5 x6 xs2 x7 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo8 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.ld_unit_zero (S := S2048x256) hz2, View.ld_unit_zero (S := S512x256) hz2,
    View.ld_unit_zero (S := S512) hz1, View.ld_unit_zero (S := S128x256) hz2, View.ld_unit_zero (S := S128) hz1,
    View.ld_unit_zero (S := S2048x512) hz2, View.ld_unit_zero (S := S2048x1) hz2, View.ld_unit_zero (S := S2048x128) hz2]

/-- The last step leaves the normaliser as a middle step does. -/
theorem den_C (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512 .f32) (harg4 : arg4.IsWhole) (arg5 : Memref sig .tc .vmem S128x256 .f32) (harg5 : arg5.IsWhole) (arg6 : Memref sig .tc .vmem S128 .f32) (harg6 : arg6.IsWhole) (arg7 : Memref sig .tc .vmem S128x256 .f32) (harg7 : arg7.IsWhole) (arg8 : Memref sig .tc .vmem S128 .f32) (harg8 : arg8.IsWhole) (arg9 : Memref sig .tc .vmem S2048x512 .i32) (harg9 : arg9.IsWhole) (arg10 : Memref sig .tc .vmem S2048x256 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (hc0 : ¬cond0_0 i) (hc1 : cond0_1 i)
    (x0 : Vec F S2048x256 .f32) (x1 : Vec F S512x256 .f32) (x2 : Vec F S512 .f32) (x3 : Vec F S128x256 .f32) (x4 : Vec F S128 .f32) (x5 : Vec F S128x256 .f32) (x6 : Vec F S128 .f32) (x7 : Vec F S2048x512 .i32) (xo8 : Vec F S2048x256 .f32) (xs0 : Vec F S2048x1 .f32) (xs1 : Vec F S2048x1 .f32) (xs2 : Vec F S2048x128 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo8 xs0 xs1 xs2 = k0_pay1 (k0_pay12 x1 x5 x6 xs2 x7 xs0) (k0_pay13 x1 x5 x6 xs2 x7 xs0) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo8 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.ld_unit_zero (S := S2048x256) hz2, View.ld_unit_zero (S := S512x256) hz2,
    View.ld_unit_zero (S := S512) hz1, View.ld_unit_zero (S := S128x256) hz2, View.ld_unit_zero (S := S128) hz1,
    View.ld_unit_zero (S := S2048x512) hz2, View.ld_unit_zero (S := S2048x1) hz2, View.ld_unit_zero (S := S2048x128) hz2]

/-- The last step leaves in the output block the new weighted sum divided by the new normaliser: the division reads back what the step itself has just stored. -/
theorem quot_C (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512 .f32) (harg4 : arg4.IsWhole) (arg5 : Memref sig .tc .vmem S128x256 .f32) (harg5 : arg5.IsWhole) (arg6 : Memref sig .tc .vmem S128 .f32) (harg6 : arg6.IsWhole) (arg7 : Memref sig .tc .vmem S128x256 .f32) (harg7 : arg7.IsWhole) (arg8 : Memref sig .tc .vmem S128 .f32) (harg8 : arg8.IsWhole) (arg9 : Memref sig .tc .vmem S2048x512 .i32) (harg9 : arg9.IsWhole) (arg10 : Memref sig .tc .vmem S2048x256 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (hc0 : ¬cond0_0 i) (hc1 : cond0_1 i)
    (x0 : Vec F S2048x256 .f32) (x1 : Vec F S512x256 .f32) (x2 : Vec F S512 .f32) (x3 : Vec F S128x256 .f32) (x4 : Vec F S128 .f32) (x5 : Vec F S128x256 .f32) (x6 : Vec F S128 .f32) (x7 : Vec F S2048x512 .i32) (xo8 : Vec F S2048x256 .f32) (xs0 : Vec F S2048x1 .f32) (xs1 : Vec F S2048x1 .f32) (xs2 : Vec F S2048x128 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo8 xs0 xs1 xs2 = k0_pay4 (k0_pay2 (k0_pay9 x1 x2) (k0_pay12 x1 x5 x6 xs2 x7 xs0) (k0_pay13 x1 x5 x6 xs2 x7 xs0) xo8) (k0_pay1 (k0_pay12 x1 x5 x6 xs2 x7 xs0) (k0_pay13 x1 x5 x6 xs2 x7 xs0) xs1) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo8 xs0 xs1 xs2)]
  unfold kernelRun0_C
  dsimp only
  sl_unfold_words
  rw [View.canon_cons_unit_zero (S := S2048x256) hz2]
  simp only [View.readCov_unit_zero (S := S2048x128) _ hz2, View.readCov_unit_zero (S := S2048x1) _ hz2,
    View.readCov_unit_zero (S := S2048x256) _ hz2, View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.ld_unit_zero (S := S2048x256) hz2, View.ld_unit_zero (S := S512x256) hz2,
    View.ld_unit_zero (S := S512) hz1, View.ld_unit_zero (S := S128x256) hz2, View.ld_unit_zero (S := S128) hz1,
    View.ld_unit_zero (S := S2048x512) hz2, View.ld_unit_zero (S := S2048x1) hz2, View.ld_unit_zero (S := S2048x128) hz2]

/-! ## The first step of a row of blocks: the queries are projected and kept, the state is reset, and the first batch is absorbed into the reset state -/

/-- The first step keeps the projected queries. -/
theorem qry_A (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512 .f32) (harg4 : arg4.IsWhole) (arg5 : Memref sig .tc .vmem S128x256 .f32) (harg5 : arg5.IsWhole) (arg6 : Memref sig .tc .vmem S128 .f32) (harg6 : arg6.IsWhole) (arg7 : Memref sig .tc .vmem S128x256 .f32) (harg7 : arg7.IsWhole) (arg8 : Memref sig .tc .vmem S128 .f32) (harg8 : arg8.IsWhole) (arg9 : Memref sig .tc .vmem S2048x512 .i32) (harg9 : arg9.IsWhole) (arg10 : Memref sig .tc .vmem S2048x256 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (hc0 : cond0_0 i) (hc1 : ¬cond0_1 i)
    (x0 : Vec F S2048x256 .f32) (x1 : Vec F S512x256 .f32) (x2 : Vec F S512 .f32) (x3 : Vec F S128x256 .f32) (x4 : Vec F S128 .f32) (x5 : Vec F S128x256 .f32) (x6 : Vec F S128 .f32) (x7 : Vec F S2048x512 .i32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay5 x0 x3 x4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_unit_zero (S := S2048x128) hz2]
  simp only [View.readCov_unit_zero (S := S2048x128) _ hz2, View.readCov_unit_zero (S := S2048x1) _ hz2,
    View.readCov_unit_zero (S := S2048x256) _ hz2, View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.ld_unit_zero (S := S2048x256) hz2, View.ld_unit_zero (S := S512x256) hz2,
    View.ld_unit_zero (S := S512) hz1, View.ld_unit_zero (S := S128x256) hz2, View.ld_unit_zero (S := S128) hz1,
    View.ld_unit_zero (S := S2048x512) hz2, View.ld_unit_zero (S := S2048x1) hz2, View.ld_unit_zero (S := S2048x128) hz2]

/-- The first step's running maximum: the batch's row maxima against the reset value, the scores taken against the queries it has just projected. -/
theorem max_A (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512 .f32) (harg4 : arg4.IsWhole) (arg5 : Memref sig .tc .vmem S128x256 .f32) (harg5 : arg5.IsWhole) (arg6 : Memref sig .tc .vmem S128 .f32) (harg6 : arg6.IsWhole) (arg7 : Memref sig .tc .vmem S128x256 .f32) (harg7 : arg7.IsWhole) (arg8 : Memref sig .tc .vmem S128 .f32) (harg8 : arg8.IsWhole) (arg9 : Memref sig .tc .vmem S2048x512 .i32) (harg9 : arg9.IsWhole) (arg10 : Memref sig .tc .vmem S2048x256 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (hc0 : cond0_0 i) (hc1 : ¬cond0_1 i)
    (x0 : Vec F S2048x256 .f32) (x1 : Vec F S512x256 .f32) (x2 : Vec F S512 .f32) (x3 : Vec F S128x256 .f32) (x4 : Vec F S128 .f32) (x5 : Vec F S128x256 .f32) (x6 : Vec F S128 .f32) (x7 : Vec F S2048x512 .i32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay3 (k0_pay11 x1 x5 x6 (k0_pay5 x0 x3 x4) x7 k0_pay6) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S2048x1) hz2]
  simp only [View.readCov_unit_zero (S := S2048x128) _ hz2, View.readCov_unit_zero (S := S2048x1) _ hz2,
    View.readCov_unit_zero (S := S2048x256) _ hz2, View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.ld_unit_zero (S := S2048x256) hz2, View.ld_unit_zero (S := S512x256) hz2,
    View.ld_unit_zero (S := S512) hz1, View.ld_unit_zero (S := S128x256) hz2, View.ld_unit_zero (S := S128) hz1,
    View.ld_unit_zero (S := S2048x512) hz2, View.ld_unit_zero (S := S2048x1) hz2, View.ld_unit_zero (S := S2048x128) hz2]

/-- The first step's normaliser, over the reset normaliser. -/
theorem den_A (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512 .f32) (harg4 : arg4.IsWhole) (arg5 : Memref sig .tc .vmem S128x256 .f32) (harg5 : arg5.IsWhole) (arg6 : Memref sig .tc .vmem S128 .f32) (harg6 : arg6.IsWhole) (arg7 : Memref sig .tc .vmem S128x256 .f32) (harg7 : arg7.IsWhole) (arg8 : Memref sig .tc .vmem S128 .f32) (harg8 : arg8.IsWhole) (arg9 : Memref sig .tc .vmem S2048x512 .i32) (harg9 : arg9.IsWhole) (arg10 : Memref sig .tc .vmem S2048x256 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (hc0 : cond0_0 i) (hc1 : ¬cond0_1 i)
    (x0 : Vec F S2048x256 .f32) (x1 : Vec F S512x256 .f32) (x2 : Vec F S512 .f32) (x3 : Vec F S128x256 .f32) (x4 : Vec F S128 .f32) (x5 : Vec F S128x256 .f32) (x6 : Vec F S128 .f32) (x7 : Vec F S2048x512 .i32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay1 (k0_pay12 x1 x5 x6 (k0_pay5 x0 x3 x4) x7 k0_pay6) (k0_pay13 x1 x5 x6 (k0_pay5 x0 x3 x4) x7 k0_pay6) k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S2048x1) hz2]
  simp only [View.readCov_unit_zero (S := S2048x128) _ hz2, View.readCov_unit_zero (S := S2048x1) _ hz2,
    View.readCov_unit_zero (S := S2048x256) _ hz2, View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.ld_unit_zero (S := S2048x256) hz2, View.ld_unit_zero (S := S512x256) hz2,
    View.ld_unit_zero (S := S512) hz1, View.ld_unit_zero (S := S128x256) hz2, View.ld_unit_zero (S := S128) hz1,
    View.ld_unit_zero (S := S2048x512) hz2, View.ld_unit_zero (S := S2048x1) hz2, View.ld_unit_zero (S := S2048x128) hz2]

/-- The first step's weighted sum, over the reset output block. -/
theorem num_A (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512 .f32) (harg4 : arg4.IsWhole) (arg5 : Memref sig .tc .vmem S128x256 .f32) (harg5 : arg5.IsWhole) (arg6 : Memref sig .tc .vmem S128 .f32) (harg6 : arg6.IsWhole) (arg7 : Memref sig .tc .vmem S128x256 .f32) (harg7 : arg7.IsWhole) (arg8 : Memref sig .tc .vmem S128 .f32) (harg8 : arg8.IsWhole) (arg9 : Memref sig .tc .vmem S2048x512 .i32) (harg9 : arg9.IsWhole) (arg10 : Memref sig .tc .vmem S2048x256 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (hc0 : cond0_0 i) (hc1 : ¬cond0_1 i)
    (x0 : Vec F S2048x256 .f32) (x1 : Vec F S512x256 .f32) (x2 : Vec F S512 .f32) (x3 : Vec F S128x256 .f32) (x4 : Vec F S128 .f32) (x5 : Vec F S128x256 .f32) (x6 : Vec F S128 .f32) (x7 : Vec F S2048x512 .i32) :
    out0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay2 (k0_pay9 x1 x2) (k0_pay12 x1 x5 x6 (k0_pay5 x0 x3 x4) x7 k0_pay6) (k0_pay13 x1 x5 x6 (k0_pay5 x0 x3 x4) x7 k0_pay6) k0_pay8 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S2048x256) hz2]
  simp only [View.readCov_unit_zero (S := S2048x128) _ hz2, View.readCov_unit_zero (S := S2048x1) _ hz2,
    View.readCov_unit_zero (S := S2048x256) _ hz2, View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.ld_unit_zero (S := S2048x256) hz2, View.ld_unit_zero (S := S512x256) hz2,
    View.ld_unit_zero (S := S512) hz1, View.ld_unit_zero (S := S128x256) hz2, View.ld_unit_zero (S := S128) hz1,
    View.ld_unit_zero (S := S2048x512) hz2, View.ld_unit_zero (S := S2048x1) hz2, View.ld_unit_zero (S := S2048x128) hz2]

end Cert.KernelIdeal.Pieces

end
-- ==== Proof.LibOnlineSoftmax.lean ====
/-
  The online-softmax recurrence on the extended reals.

  A row of attention scores `t k` (a real number, or `⊥` for a masked key) is absorbed one finite batch of keys at a
  time.  The running state is a triple: the running maximum `m`, the normaliser `l = ∑ exp (t k - m)` and, for one
  output column, the weighted sum `a = ∑ exp (t k - m) * v k`.  Absorbing a batch `T` replaces `m` by
  `m' = max m (sup T)`, rescales the two sums by `exp (m - m')` and adds the batch's own terms.  Because
  `exp (m - m') * exp (x - m) = exp (x - m')` for `x ≤ m ≤ m' < ⊤` (also when `x` or `m` is `⊥`, where both sides are
  `0`), the state after absorbing pairwise disjoint batches is the closed form over their union, whatever the order
  and the cut.  Keys whose score is `⊥` contribute `0` to both sums, so leaving a batch of them out changes nothing; and
  once some key has a real score the normaliser is a positive real, so dividing the weighted sum by it is the sum of
  the normalised weights times the values.
-/
import Idealize.ShloMosaic.PureOps.Ideal

noncomputable section

namespace Cert.Lib.OnlineSoftmax

open Idealize.ShloMosaic
open scoped BigOperators

variable {κ : Type*} [DecidableEq κ]

/-! ## Sums of reals inside the extended reals -/

/-- A finite sum of real numbers, taken in the extended reals, is the real sum. -/
theorem coe_sum (s : Finset κ) (f : κ → ℝ) : (∑ k ∈ s, (f k : EReal)) = ((∑ k ∈ s, f k : ℝ) : EReal) := by
  induction s using Finset.induction_on with
  | empty => simp
  | insert a s ha ih => rw [Finset.sum_insert ha, Finset.sum_insert ha, ih, EReal.coe_add]

/-- A real factor moves inside a finite sum of extended reals all of whose terms are real. -/
theorem mul_sum_of_real (a : ℝ) (s : Finset κ) (g : κ → EReal) (hg : ∀ k ∈ s, ∃ r : ℝ, g k = r) :
    (a : EReal) * ∑ k ∈ s, g k = ∑ k ∈ s, (a : EReal) * g k := by
  choose! f hf using hg
  rw [Finset.sum_congr rfl hf, coe_sum, ← EReal.coe_mul, Finset.mul_sum, ← coe_sum]
  refine Finset.sum_congr rfl fun k hk => ?_
  rw [hf k hk, EReal.coe_mul]

/-- A real factor moves out of a finite sum of extended reals all of whose terms are real, on the right. -/
theorem sum_mul_of_real (a : ℝ) (s : Finset κ) (g : κ → EReal) (hg : ∀ k ∈ s, ∃ r : ℝ, g k = r) :
    (∑ k ∈ s, g k) * (a : EReal) = ∑ k ∈ s, g k * (a : EReal) := by
  rw [mul_comm, mul_sum_of_real a s g hg]
  exact Finset.sum_congr rfl fun k _ => mul_comm _ _

/-! ## One weight -/

/-- Below a maximum that is not `⊤`, the weight `exp (x - M)` is a non-negative real. -/
theorem exp_sub_real {x M : EReal} (hx : x ≤ M) (hM : M ≠ ⊤) : ∃ r : ℝ, 0 ≤ r ∧ Ideal.exp (x - M) = r := by
  induction M using EReal.rec with
  | bot => obtain rfl := le_bot_iff.mp hx; exact ⟨0, le_rfl, by simp⟩
  | top => exact absurd rfl hM
  | coe m =>
    induction x using EReal.rec with
    | bot => exact ⟨0, le_rfl, by simp⟩
    | top => exact absurd hx (by simp)
    | coe a => exact ⟨Real.exp (a - m), (Real.exp_pos _).le, by rw [← EReal.coe_sub, Ideal.exp_coe]⟩

/-- A real score below a real maximum has a positive weight. -/
theorem exp_sub_pos (a m : ℝ) : ∃ r : ℝ, 0 < r ∧ Ideal.exp ((a : EReal) - (m : EReal)) = r :=
  ⟨Real.exp (a - m), Real.exp_pos _, by rw [← EReal.coe_sub, Ideal.exp_coe]⟩

/-- Raising the maximum from `M` to `M'` rescales a weight by `exp (M - M')`; at a masked score, and from the empty
    maximum `⊥`, both sides are `0`. -/
theorem exp_shift {x M M' : EReal} (hx : x ≤ M) (hM : M ≤ M') (hM' : M' ≠ ⊤) :
    Ideal.exp (M - M') * Ideal.exp (x - M) = Ideal.exp (x - M') := by
  induction M' using EReal.rec with
  | top => exact absurd rfl hM'
  | bot => obtain rfl := le_bot_iff.mp hM; obtain rfl := le_bot_iff.mp hx; simp
  | coe m' =>
    induction M using EReal.rec with
    | top => exact absurd hM (by simp)
    | bot => obtain rfl := le_bot_iff.mp hx; simp
    | coe m =>
      induction x using EReal.rec with
      | top => exact absurd hx (by simp)
      | bot => simp
      | coe a =>
        rw [← EReal.coe_sub, ← EReal.coe_sub, ← EReal.coe_sub, Ideal.exp_coe, Ideal.exp_coe, Ideal.exp_coe,
          ← EReal.coe_mul, ← Real.exp_add]
        congr 2; ring

/-! ## The closed form over a set of keys, and one absorbed batch -/

variable (t v : κ → EReal)

/-- The maximum score over the keys `U` (`⊥` over no key). -/
def mx (U : Finset κ) : EReal := U.sup t
/-- The normaliser over `U`: the sum of the weights against `U`'s own maximum. -/
def den (U : Finset κ) : EReal := ∑ k ∈ U, Ideal.exp (t k - mx t U)
/-- The weighted sum of one value column over `U`. -/
def num (U : Finset κ) : EReal := ∑ k ∈ U, Ideal.exp (t k - mx t U) * v k

@[simp] theorem mx_empty : mx t ∅ = ⊥ := rfl
@[simp] theorem den_empty : den t ∅ = 0 := rfl
@[simp] theorem num_empty : num t v ∅ = 0 := rfl

theorem mx_union (U T : Finset κ) : mx t (U ∪ T) = max (mx t U) (T.sup t) := Finset.sup_union

variable {t v}

theorem le_mx {U : Finset κ} {k : κ} (hk : k ∈ U) : t k ≤ mx t U := Finset.le_sup (f := t) hk

/-- No score is `⊤`, so no maximum is. -/
theorem mx_ne_top (ht : ∀ k, t k ≠ ⊤) (U : Finset κ) : mx t U ≠ ⊤ :=
  ((Finset.sup_lt_iff (f := t) (s := U) (a := (⊤ : EReal)) bot_lt_top).2 fun k _ => lt_top_iff_ne_top.2 (ht k)).ne

/-- The normaliser over the union of two disjoint key sets: the first set's normaliser rescaled to the joint maximum,
    plus the second set's weights against the joint maximum. -/
theorem den_union (ht : ∀ k, t k ≠ ⊤) {U T : Finset κ} (hd : Disjoint U T) :
    den t (U ∪ T) = Ideal.exp (mx t U - mx t (U ∪ T)) * den t U + ∑ c ∈ T, Ideal.exp (t c - mx t (U ∪ T)) := by
  have hle : mx t U ≤ mx t (U ∪ T) := by rw [mx_union]; exact le_max_left _ _
  have hM' := mx_ne_top ht (U ∪ T)
  obtain ⟨a, -, ha⟩ := exp_sub_real hle hM'
  rw [den, Finset.sum_union hd, den, ha,
    mul_sum_of_real a U _ fun k hk => (exp_sub_real (le_mx hk) (mx_ne_top ht U)).imp fun _ h => h.2]
  refine congrArg (· + _) (Finset.sum_congr rfl fun k hk => ?_)
  rw [← ha, exp_shift (le_mx hk) hle hM']

/-- The weighted sum over the union of two disjoint key sets, in the same form. -/
theorem num_union (ht : ∀ k, t k ≠ ⊤) (hv : ∀ k, ∃ r : ℝ, v k = r) {U T : Finset κ} (hd : Disjoint U T) :
    num t v (U ∪ T)
      = Ideal.exp (mx t U - mx t (U ∪ T)) * num t v U + ∑ c ∈ T, Ideal.exp (t c - mx t (U ∪ T)) * v c := by
  have hle : mx t U ≤ mx t (U ∪ T) := by rw [mx_union]; exact le_max_left _ _
  have hM' := mx_ne_top ht (U ∪ T)
  obtain ⟨a, -, ha⟩ := exp_sub_real hle hM'
  have hreal : ∀ k ∈ U, ∃ r : ℝ, Ideal.exp (t k - mx t U) * v k = r := fun k hk => by
    obtain ⟨e, -, he⟩ := exp_sub_real (le_mx hk) (mx_ne_top ht U)
    obtain ⟨r, hr⟩ := hv k
    exact ⟨e * r, by rw [he, hr, EReal.coe_mul]⟩
  rw [num, Finset.sum_union hd, num, ha, mul_sum_of_real a U _ hreal]
  refine congrArg (· + _) (Finset.sum_congr rfl fun k hk => ?_)
  rw [← ha, ← mul_assoc, exp_shift (le_mx hk) hle hM']

variable (t v)

/-- One step of the recurrence: absorb the batch `T` into the running (maximum, normaliser, weighted sum). -/
def absorb (T : Finset κ) (st : EReal × EReal × EReal) : EReal × EReal × EReal :=
  (max st.1 (T.sup t),
   Ideal.exp (st.1 - max st.1 (T.sup t)) * st.2.1 + ∑ c ∈ T, Ideal.exp (t c - max st.1 (T.sup t)),
   Ideal.exp (st.1 - max st.1 (T.sup t)) * st.2.2 + ∑ c ∈ T, Ideal.exp (t c - max st.1 (T.sup t)) * v c)

/-- The closed form over `U` as a state. -/
def closed (U : Finset κ) : EReal × EReal × EReal := (mx t U, den t U, num t v U)

variable {t v}

/-- Absorbing a batch disjoint from the keys already seen takes the closed form to the closed form. -/
theorem absorb_closed (ht : ∀ k, t k ≠ ⊤) (hv : ∀ k, ∃ r : ℝ, v k = r) {U T : Finset κ} (hd : Disjoint U T) :
    absorb t v T (closed t v U) = closed t v (U ∪ T) := by
  simp only [absorb, closed, ← mx_union]
  rw [← den_union ht hd, ← num_union ht hv hd]

/-- The recurrence run over a list of pairwise disjoint batches from the empty state ends at the closed form over their
    union. -/
theorem foldl_absorb (ht : ∀ k, t k ≠ ⊤) (hv : ∀ k, ∃ r : ℝ, v k = r) :
    ∀ (Ts : List (Finset κ)) (U : Finset κ), (∀ T ∈ Ts, Disjoint U T) → Ts.Pairwise Disjoint →
      Ts.foldl (fun st T => absorb t v T st) (closed t v U) = closed t v (Ts.foldl (· ∪ ·) U)
  | [], _, _, _ => rfl
  | T :: Ts, U, hU, hp => by
    rw [List.foldl_cons, List.foldl_cons, absorb_closed ht hv (hU T (List.mem_cons_self ..))]
    refine foldl_absorb ht hv Ts (U ∪ T) (fun T' hT' => ?_) (List.pairwise_cons.1 hp).2
    exact Finset.disjoint_union_left.2 ⟨hU T' (List.mem_cons_of_mem _ hT'), (List.pairwise_cons.1 hp).1 T' hT'⟩

/-- The empty state is `(⊥, 0, 0)`. -/
theorem closed_empty : closed t v ∅ = (⊥, 0, 0) := rfl

/-! ## Masked keys drop out; the normalised form -/

/-- Keys scored `⊥` do not move the maximum. -/
theorem mx_of_bot {U S : Finset κ} (hUS : U ⊆ S) (hb : ∀ k ∈ S, k ∉ U → t k = ⊥) : mx t S = mx t U := by
  have hS : S = U ∪ (S \ U) := (Finset.union_sdiff_of_subset hUS).symm
  have hbot : (S \ U).sup t = ⊥ :=
    (Finset.sup_eq_bot_iff t (S \ U)).2 fun k hk => hb k (Finset.mem_sdiff.1 hk).1 (Finset.mem_sdiff.1 hk).2
  rw [hS, mx_union, hbot, max_eq_left bot_le]

/-- Keys scored `⊥` add nothing to the normaliser: a batch of masked keys may be left out. -/
theorem den_of_bot {U S : Finset κ} (hUS : U ⊆ S) (hb : ∀ k ∈ S, k ∉ U → t k = ⊥) : den t S = den t U := by
  rw [den, den, mx_of_bot hUS hb]
  exact (Finset.sum_subset hUS fun k hk hkU => by rw [hb k hk hkU, EReal.bot_sub, Ideal.exp_bot]).symm

/-- Keys scored `⊥` add nothing to the weighted sum. -/
theorem num_of_bot {U S : Finset κ} (hUS : U ⊆ S) (hb : ∀ k ∈ S, k ∉ U → t k = ⊥) : num t v S = num t v U := by
  rw [num, num, mx_of_bot hUS hb]
  exact (Finset.sum_subset hUS fun k hk hkU => by rw [hb k hk hkU, EReal.bot_sub, Ideal.exp_bot, zero_mul]).symm

/-- Once some key has a real score, the normaliser is a positive real. -/
theorem den_pos (ht : ∀ k, t k ≠ ⊤) {U : Finset κ} (hne : ∃ k ∈ U, t k ≠ ⊥) : ∃ d : ℝ, 0 < d ∧ den t U = d := by
  choose! e he using fun k (hk : k ∈ U) => exp_sub_real (le_mx (t := t) hk) (mx_ne_top ht U)
  refine ⟨∑ k ∈ U, e k, ?_, ?_⟩
  · obtain ⟨k0, hk0, hb⟩ := hne
    refine Finset.sum_pos' (fun k hk => (he k hk).1) ⟨k0, hk0, ?_⟩
    have hM : mx t U ≠ ⊥ := fun h => hb (le_bot_iff.1 (h ▸ le_mx hk0))
    lift t k0 to ℝ using ⟨ht k0, hb⟩ with a ha
    lift mx t U to ℝ using ⟨mx_ne_top ht U, hM⟩ with m hm
    obtain ⟨r, hr, hre⟩ := exp_sub_pos a m
    have := (he k0 hk0).2
    rw [← ha, hre] at this
    exact (EReal.coe_injective this) ▸ hr
  · rw [den, ← coe_sum]
    exact Finset.sum_congr rfl fun k hk => (he k hk).2

/-- The softmax identity on the extended reals: normalising each weight and then summing against the values is the
    weighted sum divided by the normaliser, as soon as some key has a real score. -/
theorem softmax_eq (ht : ∀ k, t k ≠ ⊤) (hv : ∀ k, ∃ r : ℝ, v k = r) {U : Finset κ} (hne : ∃ k ∈ U, t k ≠ ⊥) :
    ∑ k ∈ U, Ideal.div (Ideal.exp (t k - mx t U)) (den t U) * v k = Ideal.div (num t v U) (den t U) := by
  obtain ⟨d, hd, hden⟩ := den_pos ht hne
  have hreal : ∀ k ∈ U, ∃ r : ℝ, Ideal.exp (t k - mx t U) * v k = r := fun k hk => by
    obtain ⟨e, -, he⟩ := exp_sub_real (le_mx hk) (mx_ne_top ht U)
    obtain ⟨r, hr⟩ := hv k
    exact ⟨e * r, by rw [he, hr, EReal.coe_mul]⟩
  rw [hden]
  simp only [Ideal.div_coe hd.ne']
  rw [num, sum_mul_of_real (1 / d) U _ hreal]
  exact Finset.sum_congr rfl fun k _ => mul_right_comm _ _ _

/-- The whole law in one statement.  A row's scores `t` over all keys `S` (none `⊤`), real values `v`; the recurrence is
    run over pairwise disjoint batches whose union `U ⊆ S` holds every key with a real score, and at least one.  Then the
    final weighted sum divided by the final normaliser is the softmax-weighted sum over ALL of `S`, each weight
    normalised against the maximum and the normaliser over `S`. -/
theorem online_softmax (ht : ∀ k, t k ≠ ⊤) (hv : ∀ k, ∃ r : ℝ, v k = r) (Ts : List (Finset κ)) (hp : Ts.Pairwise Disjoint)
    {S : Finset κ} (hUS : Ts.foldl (· ∪ ·) ∅ ⊆ S) (hb : ∀ k ∈ S, k ∉ Ts.foldl (· ∪ ·) ∅ → t k = ⊥)
    (hne : ∃ k ∈ S, t k ≠ ⊥) :
    Ideal.div (Ts.foldl (fun st T => absorb t v T st) (⊥, 0, 0)).2.2 (Ts.foldl (fun st T => absorb t v T st) (⊥, 0, 0)).2.1
      = ∑ k ∈ S, Ideal.div (Ideal.exp (t k - mx t S)) (den t S) * v k := by
  rw [← closed_empty (t := t) (v := v), foldl_absorb ht hv Ts ∅ (fun T _ => Finset.disjoint_empty_left T) hp,
    softmax_eq ht hv hne]
  simp only [closed]
  rw [num_of_bot hUS hb, den_of_bot hUS hb]

end Cert.Lib.OnlineSoftmax

end
-- ==== Proof.Tiles.lean ====
/-
  The 8192 keys are absorbed in 16 batches of 512: batch `k` holds the keys `512 k, …, 512 k + 511`.  The keys of the
  batches before `k` and batch `k` are disjoint, together they are the keys of the batches before `k + 1`, nothing comes
  before batch 0 and everything before "batch 16".  A sum or a supremum over a batch is the one over its 512 positions.
-/
import proofs.«169537_j2972117369444_2_alg».proof.Proof.LibOnlineSoftmax

noncomputable section

namespace Cert.Attn.Tiles

open scoped BigOperators

/-- Position `j` of batch `k`, as a key. -/
def key (k : Fin 16) (j : Fin 512) : Fin 8192 :=
  ⟨512 * k.val + j.val, by have := k.isLt; have := j.isLt; omega⟩

theorem key_val (k : Fin 16) (j : Fin 512) : (key k j).val = 512 * k.val + j.val := rfl

/-- A batch's positions are distinct keys. -/
def keyEmb (k : Fin 16) : Fin 512 ↪ Fin 8192 :=
  ⟨key k, fun a b h => Fin.ext (by have := congrArg Fin.val h; rw [key_val, key_val] at this; omega)⟩

/-- Batch `k`. -/
def batch (k : Fin 16) : Finset (Fin 8192) := Finset.univ.map (keyEmb k)

/-- The keys of the batches before `k`. -/
def seen (k : ℕ) : Finset (Fin 8192) := Finset.univ.filter fun j => j.val < 512 * k

theorem mem_seen {k : ℕ} {j : Fin 8192} : j ∈ seen k ↔ j.val < 512 * k := by
  simp only [seen, Finset.mem_filter, Finset.mem_univ, true_and]

theorem mem_batch {k : Fin 16} {j : Fin 8192} : j ∈ batch k ↔ 512 * k.val ≤ j.val ∧ j.val < 512 * k.val + 512 := by
  constructor
  · intro h
    obtain ⟨a, -, rfl⟩ := Finset.mem_map.1 h
    have := a.isLt
    show 512 * k.val ≤ (key k a).val ∧ (key k a).val < 512 * k.val + 512
    rw [key_val]; omega
  · intro h
    exact Finset.mem_map.2 ⟨⟨j.val - 512 * k.val, by omega⟩, Finset.mem_univ _, Fin.ext (by
      show (key k _).val = j.val
      rw [key_val]; dsimp only; omega)⟩

theorem seen_zero : seen 0 = ∅ := by
  ext j; simp only [mem_seen, Nat.mul_zero, Nat.not_lt_zero, Finset.notMem_empty]

theorem seen_succ (k : Fin 16) : seen (k.val + 1) = seen k.val ∪ batch k := by
  ext j; simp only [mem_seen, Finset.mem_union, mem_batch]; omega

theorem seen_disjoint (k : Fin 16) : Disjoint (seen k.val) (batch k) := by
  rw [Finset.disjoint_left]
  intro j hj hb
  have h1 := mem_seen.1 hj
  have h2 := (mem_batch.1 hb).1
  omega

theorem seen_all : seen 16 = Finset.univ := by
  ext j; have := j.isLt; simp only [mem_seen, Finset.mem_univ, iff_true]; omega

/-- A sum over a batch is the sum over its 512 positions. -/
theorem sum_batch {M : Type*} [AddCommMonoid M] (k : Fin 16) (g : Fin 8192 → M) :
    ∑ c ∈ batch k, g c = ∑ j : Fin 512, g (key k j) := by
  rw [batch, Finset.sum_map]; rfl

/-- A supremum over a batch is the supremum over its 512 positions. -/
theorem sup_batch (k : Fin 16) (g : Fin 8192 → EReal) :
    (batch k).sup g = (Finset.univ : Finset (Fin 512)).sup fun j => g (key k j) := by
  rw [batch, Finset.sup_map]; rfl

end Cert.Attn.Tiles

end
-- ==== Proof.Blocks.lean ====
/-
  What each window's block holds at a grid point, in terms of the argument arrays.

  The grid is 4 blocks of 2048 queries by 16 batches of 512 keys; point `t` handles query block `t / 16` and batch
  `t % 16`.  Position `p` of the query block is query `2048 (t / 16) + p`; position `j` of the batch is key
  `512 (t % 16) + j`.  The query features' block holds the features of the block's queries, the key features', factors'
  and mask's blocks those of the batch's keys (the mask's those of the block's queries against the batch's keys), and the
  four weight and bias windows hold their whole arrays.  A block's coordinate is always its index times its extent plus
  the coordinate inside the block.  The mask reaches the kernel widened to 32-bit words by the one operation before it.
-/
import proofs.«169537_j2972117369444_2_alg».proof.Proof.Gen.KernelIdeal.Frame
import proofs.«169537_j2972117369444_2_alg».proof.Proof.Tiles
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.Attn.Tiles

variable {F : FTy → Type} [FloatOps F]
variable (m : (ℓ : Loc nD τ sig) → Buf (Elt F) ℓ)

/-! ## The windows' blocks at a point, each named once with its literal shape -/

/-- Point `t`'s block of window 0: the query features' block. -/
def B0 (c : Dev nD) (t : Fin cfg0.N) : Vec F S2048x256 .f32 := iblk m c 0 t

/-- Point `t`'s block of window 1: the key features' block. -/
def B1 (c : Dev nD) (t : Fin cfg0.N) : Vec F S512x256 .f32 := iblk m c 1 t

/-- Point `t`'s block of window 2: the key factors' block. -/
def B2 (c : Dev nD) (t : Fin cfg0.N) : Vec F S512 .f32 := iblk m c 2 t

/-- Point `t`'s block of window 3: the query-side weights. -/
def B3 (c : Dev nD) (t : Fin cfg0.N) : Vec F S128x256 .f32 := iblk m c 3 t

/-- Point `t`'s block of window 4: the query-side bias. -/
def B4 (c : Dev nD) (t : Fin cfg0.N) : Vec F S128 .f32 := iblk m c 4 t

/-- Point `t`'s block of window 5: the key-side weights. -/
def B5 (c : Dev nD) (t : Fin cfg0.N) : Vec F S128x256 .f32 := iblk m c 5 t

/-- Point `t`'s block of window 6: the key-side bias. -/
def B6 (c : Dev nD) (t : Fin cfg0.N) : Vec F S128 .f32 := iblk m c 6 t

/-- Point `t`'s block of window 7: the mask words' block. -/
def B7 (c : Dev nD) (t : Fin cfg0.N) : Vec F S2048x512 .i32 := iblk m c 7 t

/-- The windows' block indices at every grid point. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 1) = t.val % 16
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = t.val / 16 ∧ win0_7.index t (1 : Fin 2) = t.val % 16
    ∧ win0_8.index t (0 : Fin 2) = t.val / 16 ∧ win0_8.index t (1 : Fin 2) = 0 :=
  (by decide +kernel : ∀ t : Fin grid0.N, _)

theorem N64 : cfg0.N = 64 := N_0

/-- The query at position `p` of point `t`'s query block. -/
def row (t : Fin cfg0.N) (p : Fin 2048) : Fin 8192 :=
  ⟨2048 * (t.val / 16) + p.val, by have := lt_of_lt_of_eq t.isLt N64; have := p.isLt; omega⟩

/-- Point `t`'s batch. -/
def bat (t : Fin cfg0.N) : Fin 16 := ⟨t.val % 16, Nat.mod_lt _ (by decide)⟩

theorem row_val (t : Fin cfg0.N) (p : Fin 2048) : (row t p).val = 2048 * (t.val / 16) + p.val := rfl
theorem bat_val (t : Fin cfg0.N) : (bat t).val = t.val % 16 := rfl

/-- The query features' block: row `p` is query `row t p`'s features. -/
theorem blk0 (c : Dev nD) (t : Fin cfg0.N) (p : Fin 2048) (kk : Fin 256) :
    B0 m c t (ix2 p kk) = m ((c : Thread nD τ).loc main_arg0) (ix2 (row t p) kk) := by
  unfold B0 iblk
  rw [View.read_apply]
  show V m c main_arg0 _ = _
  rw [V_main_arg0]
  refine congrArg _ (funext fun a => Fin.ext ?_)
  match a with
  | ⟨0, _⟩ =>
    show win0_0.index t (0 : Fin 2) * 2048 + 1 * p.val = 2048 * (t.val / 16) + p.val
    rw [(idx_facts t).1]; omega
  | ⟨1, _⟩ =>
    show win0_0.index t (1 : Fin 2) * 256 + 1 * kk.val = kk.val
    rw [(idx_facts t).2.1]; omega

/-- The key features' block: row `j` is key `key (bat t) j`'s features. -/
theorem blk1 (c : Dev nD) (t : Fin cfg0.N) (j : Fin 512) (kk : Fin 256) :
    B1 m c t (ix2 j kk) = m ((c : Thread nD τ).loc main_arg1) (ix2 (key (bat t) j) kk) := by
  unfold B1 iblk
  rw [View.read_apply]
  show V m c main_arg1 _ = _
  rw [V_main_arg1]
  refine congrArg _ (funext fun a => Fin.ext ?_)
  match a with
  | ⟨0, _⟩ =>
    show win0_1.index t (0 : Fin 2) * 512 + 1 * j.val = 512 * (t.val % 16) + j.val
    rw [(idx_facts t).2.2.1]; omega
  | ⟨1, _⟩ =>
    show win0_1.index t (1 : Fin 2) * 256 + 1 * kk.val = kk.val
    rw [(idx_facts t).2.2.2.1]; omega

/-- The factors' block: position `j` is key `key (bat t) j`'s factor. -/
theorem blk2 (c : Dev nD) (t : Fin cfg0.N) (j : Fin 512) :
    B2 m c t (ix1 j) = m ((c : Thread nD τ).loc main_arg2) (ix1 (key (bat t) j)) := by
  unfold B2 iblk
  rw [View.read_apply]
  show V m c main_arg2 _ = _
  rw [V_main_arg2]
  refine congrArg _ (funext fun a => Fin.ext ?_)
  match a with
  | ⟨0, _⟩ =>
    show win0_2.index t (0 : Fin 1) * 512 + 1 * j.val = 512 * (t.val % 16) + j.val
    rw [(idx_facts t).2.2.2.2.1]; omega

/-- The query-side weights' window holds the whole array. -/
theorem blk3 (c : Dev nD) (t : Fin cfg0.N) :
    B3 m c t = m ((c : Thread nD τ).loc main_arg4) := by
  funext y
  unfold B3 iblk
  rw [View.read_apply]
  show V m c main_arg4 _ = _
  rw [V_main_arg4]
  refine congrArg _ (funext fun a => Fin.ext ?_)
  match a with
  | ⟨0, _⟩ =>
    show win0_3.index t (0 : Fin 2) * 128 + 1 * (y 0).val = (y 0).val
    rw [(idx_facts t).2.2.2.2.2.1]; omega
  | ⟨1, _⟩ =>
    show win0_3.index t (1 : Fin 2) * 256 + 1 * (y 1).val = (y 1).val
    rw [(idx_facts t).2.2.2.2.2.2.1]; omega

/-- The query-side bias' window holds the whole array. -/
theorem blk4 (c : Dev nD) (t : Fin cfg0.N) :
    B4 m c t = m ((c : Thread nD τ).loc main_arg5) := by
  funext y
  unfold B4 iblk
  rw [View.read_apply]
  show V m c main_arg5 _ = _
  rw [V_main_arg5]
  refine congrArg _ (funext fun a => Fin.ext ?_)
  match a with
  | ⟨0, _⟩ =>
    show win0_4.index t (0 : Fin 1) * 128 + 1 * (y 0).val = (y 0).val
    rw [(idx_facts t).2.2.2.2.2.2.2.1]; omega

/-- The key-side weights' window holds the whole array. -/
theorem blk5 (c : Dev nD) (t : Fin cfg0.N) :
    B5 m c t = m ((c : Thread nD τ).loc main_arg6) := by
  funext y
  unfold B5 iblk
  rw [View.read_apply]
  show V m c main_arg6 _ = _
  rw [V_main_arg6]
  refine congrArg _ (funext fun a => Fin.ext ?_)
  match a with
  | ⟨0, _⟩ =>
    show win0_5.index t (0 : Fin 2) * 128 + 1 * (y 0).val = (y 0).val
    rw [(idx_facts t).2.2.2.2.2.2.2.2.1]; omega
  | ⟨1, _⟩ =>
    show win0_5.index t (1 : Fin 2) * 256 + 1 * (y 1).val = (y 1).val
    rw [(idx_facts t).2.2.2.2.2.2.2.2.2.1]; omega

/-- The key-side bias' window holds the whole array. -/
theorem blk6 (c : Dev nD) (t : Fin cfg0.N) :
    B6 m c t = m ((c : Thread nD τ).loc main_arg7) := by
  funext y
  unfold B6 iblk
  rw [View.read_apply]
  show V m c main_arg7 _ = _
  rw [V_main_arg7]
  refine congrArg _ (funext fun a => Fin.ext ?_)
  match a with
  | ⟨0, _⟩ =>
    show win0_6.index t (0 : Fin 1) * 128 + 1 * (y 0).val = (y 0).val
    rw [(idx_facts t).2.2.2.2.2.2.2.2.2.2.1]; omega

/-- The mask as the region finds it: each bit widened to a 32-bit word. -/
theorem V_mask (c : Dev nD) :
    (V m c main_v0 : S8192x8192.Idx → BitVec 32) = extui 32 (m ((c : Thread nD τ).loc main_arg3)) (by decide) := by
  dsimp only [Gen.V, Gen.hostOps0]
  after_results

/-- A widened mask bit is non-zero exactly when the bit is set. -/
theorem cmpi_widen (b : BitVec 1) : IntOp.cmpi .ne (b.setWidth 32) 0#32 = b := by
  by_cases h : b = 1#1
  · subst h; decide
  · obtain rfl := eq_zero_of_ne_one h; decide

/-- The mask's block: at `(p, j)` the word of query `row t p` against key `key (bat t) j`. -/
theorem blk7 (c : Dev nD) (t : Fin cfg0.N) (p : Fin 2048) (j : Fin 512) :
    IntOp.cmpi .ne (B7 m c t (ix2 p j)) 0#32
      = m ((c : Thread nD τ).loc main_arg3) (ix2 (row t p) (key (bat t) j)) := by
  have e : B7 m c t (ix2 p j)
      = (m ((c : Thread nD τ).loc main_arg3) (ix2 (row t p) (key (bat t) j))).setWidth 32 := by
    unfold B7 iblk
    rw [View.read_apply]
    show (V m c main_v0 : S8192x8192.Idx → BitVec 32) _ = _
    rw [V_mask]
    show (m ((c : Thread nD τ).loc main_arg3) _).setWidth 32 = _
    refine congrArg (fun i => (m ((c : Thread nD τ).loc main_arg3) i).setWidth 32) (funext fun a => Fin.ext ?_)
    match a with
    | ⟨0, _⟩ =>
      show win0_7.index t (0 : Fin 2) * 2048 + 1 * p.val = 2048 * (t.val / 16) + p.val
      rw [(idx_facts t).2.2.2.2.2.2.2.2.2.2.2.1]; omega
    | ⟨1, _⟩ =>
      show win0_7.index t (1 : Fin 2) * 512 + 1 * j.val = 512 * (t.val % 16) + j.val
      rw [(idx_facts t).2.2.2.2.2.2.2.2.2.2.2.2.1]; omega
  rw [e, cmpi_widen]

end Cert.KernelIdeal.Blocks

end
-- ==== Proof.State.lean ====
/-
  What the carried state holds after each grid point, as the body's arithmetic applied to the point's blocks and to
  what the point before left: the first point of a row of blocks resets the state and projects the queries, the last
  one also divides.  Each equation joins the run's case equation for the point with the value of the case's stores.
-/
import proofs.«169537_j2972117369444_2_alg».proof.Proof.Pieces
import proofs.«169537_j2972117369444_2_alg».proof.Proof.Blocks
import Idealize.ShloMosaic.PureOps.Ideal

set_option maxRecDepth 16384

noncomputable section

namespace Cert.KernelIdeal.State

open Cert.KernelIdeal Cert.KernelIdeal.Gen Cert.KernelIdeal.Blocks Idealize.ShloMosaic Idealize.ShloMosaic.TcCoe Idealize.SL.Sem

variable (m : (ℓ : Loc nD τ sig) → Buf (Elt Ideal) ℓ) (c : Dev nD)

/-- What the point before `t` left: the output block, the running maximum, the normaliser, the kept projections. -/
abbrev prev (t : Fin cfg0.N) := outsAt0 m c (t.val - 1) (Nat.lt_of_le_of_lt (Nat.sub_le _ _) t.isLt)

/-! ## The first point of a row of blocks -/

/-- The kept projections after the first point. -/
theorem qry_A (t : Fin cfg0.N) (h0 : t.val % 16 = 0) (h1 : ¬t.val % 16 = 15) :
    (outsAt0 m c t.val t.isLt).2.2.2 = k0_pay5 (B0 m c t) (B3 m c t) (B4 m c t) := by
  rw [outsAt0_A m c t h0 h1]
  dsimp only
  exact Pieces.qry_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (B0 m c t) (B1 m c t) (B2 m c t) (B3 m c t) (B4 m c t) (B5 m c t) (B6 m c t) (B7 m c t)

/-- The running maximum after the first point. -/
theorem max_A (t : Fin cfg0.N) (h0 : t.val % 16 = 0) (h1 : ¬t.val % 16 = 15) :
    (outsAt0 m c t.val t.isLt).2.1 = k0_pay3 (k0_pay11 (B1 m c t) (B5 m c t) (B6 m c t) (k0_pay5 (B0 m c t) (B3 m c t) (B4 m c t)) (B7 m c t) (k0_pay6 (F := Ideal))) := by
  rw [outsAt0_A m c t h0 h1]
  dsimp only
  exact Pieces.max_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (B0 m c t) (B1 m c t) (B2 m c t) (B3 m c t) (B4 m c t) (B5 m c t) (B6 m c t) (B7 m c t)

/-- The normaliser after the first point. -/
theorem den_A (t : Fin cfg0.N) (h0 : t.val % 16 = 0) (h1 : ¬t.val % 16 = 15) :
    (outsAt0 m c t.val t.isLt).2.2.1 = k0_pay1 (k0_pay12 (B1 m c t) (B5 m c t) (B6 m c t) (k0_pay5 (B0 m c t) (B3 m c t) (B4 m c t)) (B7 m c t) (k0_pay6 (F := Ideal))) (k0_pay13 (B1 m c t) (B5 m c t) (B6 m c t) (k0_pay5 (B0 m c t) (B3 m c t) (B4 m c t)) (B7 m c t) (k0_pay6 (F := Ideal))) (k0_pay7 (F := Ideal)) := by
  rw [outsAt0_A m c t h0 h1]
  dsimp only
  exact Pieces.den_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (B0 m c t) (B1 m c t) (B2 m c t) (B3 m c t) (B4 m c t) (B5 m c t) (B6 m c t) (B7 m c t)

/-- The weighted sum after the first point. -/
theorem num_A (t : Fin cfg0.N) (h0 : t.val % 16 = 0) (h1 : ¬t.val % 16 = 15) :
    (outsAt0 m c t.val t.isLt).1 = k0_pay2 (k0_pay9 (B1 m c t) (B2 m c t)) (k0_pay12 (B1 m c t) (B5 m c t) (B6 m c t) (k0_pay5 (B0 m c t) (B3 m c t) (B4 m c t)) (B7 m c t) (k0_pay6 (F := Ideal))) (k0_pay13 (B1 m c t) (B5 m c t) (B6 m c t) (k0_pay5 (B0 m c t) (B3 m c t) (B4 m c t)) (B7 m c t) (k0_pay6 (F := Ideal))) (k0_pay8 (F := Ideal)) := by
  rw [outsAt0_A m c t h0 h1]
  dsimp only
  exact Pieces.num_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (B0 m c t) (B1 m c t) (B2 m c t) (B3 m c t) (B4 m c t) (B5 m c t) (B6 m c t) (B7 m c t)

/-! ## A middle point -/

/-- The running maximum after a middle point. -/
theorem max_B (t : Fin cfg0.N) (h0 : ¬t.val % 16 = 0) (h1 : ¬t.val % 16 = 15) :
    (outsAt0 m c t.val t.isLt).2.1 = k0_pay3 (k0_pay11 (B1 m c t) (B5 m c t) (B6 m c t) (prev m c t).2.2.2 (B7 m c t) (prev m c t).2.1) := by
  rw [outsAt0_B m c t h0 h1]
  dsimp only
  exact Pieces.max_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (B0 m c t) (B1 m c t) (B2 m c t) (B3 m c t) (B4 m c t) (B5 m c t) (B6 m c t) (B7 m c t) (prev m c t).1 (prev m c t).2.1 (prev m c t).2.2.1 (prev m c t).2.2.2

/-- The normaliser after a middle point. -/
theorem den_B (t : Fin cfg0.N) (h0 : ¬t.val % 16 = 0) (h1 : ¬t.val % 16 = 15) :
    (outsAt0 m c t.val t.isLt).2.2.1 = k0_pay1 (k0_pay12 (B1 m c t) (B5 m c t) (B6 m c t) (prev m c t).2.2.2 (B7 m c t) (prev m c t).2.1) (k0_pay13 (B1 m c t) (B5 m c t) (B6 m c t) (prev m c t).2.2.2 (B7 m c t) (prev m c t).2.1) (prev m c t).2.2.1 := by
  rw [outsAt0_B m c t h0 h1]
  dsimp only
  exact Pieces.den_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (B0 m c t) (B1 m c t) (B2 m c t) (B3 m c t) (B4 m c t) (B5 m c t) (B6 m c t) (B7 m c t) (prev m c t).1 (prev m c t).2.1 (prev m c t).2.2.1 (prev m c t).2.2.2

/-- The weighted sum after a middle point. -/
theorem num_B (t : Fin cfg0.N) (h0 : ¬t.val % 16 = 0) (h1 : ¬t.val % 16 = 15) :
    (outsAt0 m c t.val t.isLt).1 = k0_pay2 (k0_pay9 (B1 m c t) (B2 m c t)) (k0_pay12 (B1 m c t) (B5 m c t) (B6 m c t) (prev m c t).2.2.2 (B7 m c t) (prev m c t).2.1) (k0_pay13 (B1 m c t) (B5 m c t) (B6 m c t) (prev m c t).2.2.2 (B7 m c t) (prev m c t).2.1) (prev m c t).1 := by
  rw [outsAt0_B m c t h0 h1]
  dsimp only
  exact Pieces.num_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (B0 m c t) (B1 m c t) (B2 m c t) (B3 m c t) (B4 m c t) (B5 m c t) (B6 m c t) (B7 m c t) (prev m c t).1 (prev m c t).2.1 (prev m c t).2.2.1 (prev m c t).2.2.2

/-- A middle point leaves the kept projections as they were. -/
theorem qry_B (t : Fin cfg0.N) (h0 : ¬t.val % 16 = 0) (h1 : ¬t.val % 16 = 15) :
    (outsAt0 m c t.val t.isLt).2.2.2 = (prev m c t).2.2.2 := by
  rw [outsAt0_B m c t h0 h1]
  dsimp only
  rfl

/-! ## The last point of a row of blocks -/

/-- The running maximum after the last point. -/
theorem max_C (t : Fin cfg0.N) (h0 : ¬t.val % 16 = 0) (h1 : t.val % 16 = 15) :
    (outsAt0 m c t.val t.isLt).2.1 = k0_pay3 (k0_pay11 (B1 m c t) (B5 m c t) (B6 m c t) (prev m c t).2.2.2 (B7 m c t) (prev m c t).2.1) := by
  rw [outsAt0_C m c t h0 h1]
  dsimp only
  exact Pieces.max_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (B0 m c t) (B1 m c t) (B2 m c t) (B3 m c t) (B4 m c t) (B5 m c t) (B6 m c t) (B7 m c t) (prev m c t).1 (prev m c t).2.1 (prev m c t).2.2.1 (prev m c t).2.2.2

/-- The normaliser after the last point. -/
theorem den_C (t : Fin cfg0.N) (h0 : ¬t.val % 16 = 0) (h1 : t.val % 16 = 15) :
    (outsAt0 m c t.val t.isLt).2.2.1 = k0_pay1 (k0_pay12 (B1 m c t) (B5 m c t) (B6 m c t) (prev m c t).2.2.2 (B7 m c t) (prev m c t).2.1) (k0_pay13 (B1 m c t) (B5 m c t) (B6 m c t) (prev m c t).2.2.2 (B7 m c t) (prev m c t).2.1) (prev m c t).2.2.1 := by
  rw [outsAt0_C m c t h0 h1]
  dsimp only
  exact Pieces.den_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (B0 m c t) (B1 m c t) (B2 m c t) (B3 m c t) (B4 m c t) (B5 m c t) (B6 m c t) (B7 m c t) (prev m c t).1 (prev m c t).2.1 (prev m c t).2.2.1 (prev m c t).2.2.2

/-- The output block after the last point: the new weighted sum over the new normaliser. -/
theorem quot_C (t : Fin cfg0.N) (h0 : ¬t.val % 16 = 0) (h1 : t.val % 16 = 15) :
    (outsAt0 m c t.val t.isLt).1 = k0_pay4 (k0_pay2 (k0_pay9 (B1 m c t) (B2 m c t)) (k0_pay12 (B1 m c t) (B5 m c t) (B6 m c t) (prev m c t).2.2.2 (B7 m c t) (prev m c t).2.1) (k0_pay13 (B1 m c t) (B5 m c t) (B6 m c t) (prev m c t).2.2.2 (B7 m c t) (prev m c t).2.1) (prev m c t).1) (k0_pay1 (k0_pay12 (B1 m c t) (B5 m c t) (B6 m c t) (prev m c t).2.2.2 (B7 m c t) (prev m c t).2.1) (k0_pay13 (B1 m c t) (B5 m c t) (B6 m c t) (prev m c t).2.2.2 (B7 m c t) (prev m c t).2.1) (prev m c t).2.2.1) := by
  rw [outsAt0_C m c t h0 h1]
  dsimp only
  exact Pieces.quot_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (B0 m c t) (B1 m c t) (B2 m c t) (B3 m c t) (B4 m c t) (B5 m c t) (B6 m c t) (B7 m c t) (prev m c t).1 (prev m c t).2.1 (prev m c t).2.2.1 (prev m c t).2.2.2

/-- The last point leaves the kept projections as they were. -/
theorem qry_C (t : Fin cfg0.N) (h0 : ¬t.val % 16 = 0) (h1 : t.val % 16 = 15) :
    (outsAt0 m c t.val t.isLt).2.2.2 = (prev m c t).2.2.2 := by
  rw [outsAt0_C m c t h0 h1]
  dsimp only
  rfl

end Cert.KernelIdeal.State

end
-- ==== Proof.Spec.lean ====
/-
  What both programs compute, as one function of the argument arrays over the extended reals.

  Queries and keys are affine images of the two feature arrays: row r of `proj Z W b` is `Z[r, ·] · Wᵀ + b`, a vector of
  128 reals.  The score of query n against key j is the inner product of their images times a fixed scale, or a fixed
  finite fill where the mask is set.  The value of key j is its feature row scaled by `fx[j]`.  The result at (n, c) is
  the softmax-weighted sum over all 8192 keys of the values' column c: each weight is `exp (score - max)` divided by the
  sum of those exponentials, the maximum and the sum taken over the whole row of scores.
-/
import Idealize.ShloMosaic.PureOps.Ideal
import Idealize.ShloMosaic.Lib.ValueIdx
import proofs.«169537_j2972117369444_2_alg».proof.Proof.LibOnlineSoftmax

noncomputable section

namespace Cert.Attn

open Idealize.ShloMosaic Idealize.ShloMosaic.ValueIdx Cert.Lib.OnlineSoftmax
open scoped BigOperators

/-- The scale the scores are multiplied by: one f32 word, the same in both programs. -/
def scale : EReal := Ideal.ofBits .f32 0x3DB504F3#32
/-- The finite score a masked pair gets: one f32 word, the same in both programs. -/
def fill : EReal := Ideal.ofBits .f32 0xCF800000#32

/-- Row `r` of `Z · Wᵀ + b` at coordinate `d`. -/
def proj {n : ℕ} (Z : (⟨2, ![n, 256]⟩ : Shape).Idx → EReal) (W : (⟨2, ![128, 256]⟩ : Shape).Idx → EReal)
    (b : (⟨1, ![128]⟩ : Shape).Idx → EReal) (r : Fin n) (d : Fin 128) : EReal :=
  (∑ k : Fin 256, Z (ix2 r k) * W (ix2 d k)) + b (ix1 d)

section
variable (X Y : (⟨2, ![8192, 256]⟩ : Shape).Idx → EReal) (fx : (⟨1, ![8192]⟩ : Shape).Idx → EReal)
  (msk : (⟨2, ![8192, 8192]⟩ : Shape).Idx → BitVec 1)
  (Wq : (⟨2, ![128, 256]⟩ : Shape).Idx → EReal) (bq : (⟨1, ![128]⟩ : Shape).Idx → EReal)
  (Wk : (⟨2, ![128, 256]⟩ : Shape).Idx → EReal) (bk : (⟨1, ![128]⟩ : Shape).Idx → EReal)

/-- The score of query `n` against key `j`. -/
def score (n j : Fin 8192) : EReal :=
  if msk (ix2 n j) = 1 then fill else (∑ d : Fin 128, proj X Wq bq n d * proj Y Wk bk j d) * scale

/-- Column `c` of key `j`'s value. -/
def value (j : Fin 8192) (c : Fin 256) : EReal := fx (ix1 j) * Y (ix2 j c)

/-- The result at `(n, c)`: the softmax of row `n` of the scores, applied to column `c` of the values. -/
def out (n : Fin 8192) (c : Fin 256) : EReal :=
  ∑ j : Fin 8192, Ideal.div (Ideal.exp (score X Y msk Wq bq Wk bk n j - mx (score X Y msk Wq bq Wk bk n) Finset.univ))
      (den (score X Y msk Wq bq Wk bk n) Finset.univ) * value Y fx j c
end

/-- The f32 word of minus infinity is the bottom of the extended reals. -/
theorem ofBits_neg_inf : Ideal.ofBits .f32 0xFF800000#32 = (⊥ : EReal) := by
  simp [Ideal.ofBits, Ideal.ieee]

/-- The scale is a real number. -/
theorem scale_real : ∃ r : ℝ, scale = r := by
  unfold scale; simp only [Ideal.ofBits, Ideal.ieee]; exact ⟨_, by simp; rfl⟩

/-- The fill is a real number. -/
theorem fill_real : ∃ r : ℝ, fill = r := by
  unfold fill; simp only [Ideal.ofBits, Ideal.ieee]; exact ⟨_, by simp; rfl⟩

end Cert.Attn

end
-- ==== Proof.LibMatmulNT.lean ====
/-
  A matrix product whose right operand is contracted along its SECOND axis: x : [M, K] against y : [N, K],
  the product x · yᵀ. Into the zero accumulator, on the extended reals, its entry (p, q) is
  `Σ_k x[p, k] · y[q, k]`. Stated for any dimension-numbers record with these fields (contracting axis 1 of both
  operands, free axis 0 of both, no batch axis) and any sizes M, K, N.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The contraction has one axis … -/
theorem contr_rank (D : DotDims ⟨2, ![M, K]⟩ ⟨2, ![N, K]⟩ ⟨2, ![M, N]⟩) (hlc : D.lhsContracting = [1]) :
    D.contr.rank = 1 := by
  rw [D.rank_contr, hlc]; rfl

/-- … of extent K, the left operand's second extent. -/
theorem contr_size (D : DotDims ⟨2, ![M, K]⟩ ⟨2, ![N, K]⟩ ⟨2, ![M, N]⟩) (hlc : D.lhsContracting = [1]) :
    D.contr.size ⟨0, by rw [contr_rank D hlc]; exact Nat.one_pos⟩ = K := by
  obtain ⟨lc, rc, ln, rn, lb, rb, wf⟩ := D
  dsimp only at hlc
  subst hlc
  rfl

/-- The left operand's row is the result's row. -/
theorem lhsIdx_row (D : DotDims ⟨2, ![M, K]⟩ ⟨2, ![N, K]⟩ ⟨2, ![M, N]⟩)
    (hln : D.lhsNonContracting = [0]) (hlb : D.lhsBatch = [])
    (j : (⟨2, ![M, N]⟩ : Shape).Idx) (kk : D.contr.Idx) : (D.lhsIdx j kk 0).val = (j 0).val := by
  obtain ⟨lc, rc, ln, rn, lb, rb, wf⟩ := D
  dsimp only at hln hlb
  subst hln hlb
  unfold DotDims.lhsIdx
  rw [dif_neg List.not_mem_nil, dif_pos (List.mem_singleton.mpr rfl)]
  rfl

/-- The right operand's row is the result's column. -/
theorem rhsIdx_row (D : DotDims ⟨2, ![M, K]⟩ ⟨2, ![N, K]⟩ ⟨2, ![M, N]⟩)
    (hln : D.lhsNonContracting = [0]) (hrn : D.rhsNonContracting = [0]) (hlb : D.lhsBatch = []) (hrb : D.rhsBatch = [])
    (j : (⟨2, ![M, N]⟩ : Shape).Idx) (kk : D.contr.Idx) : (D.rhsIdx j kk 0).val = (j 1).val := by
  obtain ⟨lc, rc, ln, rn, lb, rb, wf⟩ := D
  dsimp only at hln hrn hlb hrb
  subst hln hrn hlb hrb
  unfold DotDims.rhsIdx
  rw [dif_neg List.not_mem_nil, dif_pos (List.mem_singleton.mpr rfl)]
  rfl

/-- Entry (p, q) of x · yᵀ accumulated into zeros is the sum over the shared axis of x[p, k] · y[q, k]. -/
theorem matmul_nt_apply (D : DotDims ⟨2, ![M, K]⟩ ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (prec : Option ContractPrecision) {φ₁ φ₂ : FTy}
    (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q)
      = ∑ k : Fin K, x (ix2 p k) * y (ix2 q k) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  refine congrArg₂ (· * ·) (congrArg x (funext fun a => Fin.ext ?_)) (congrArg y (funext fun a => Fin.ext ?_))
  · match a with
    | ⟨0, _⟩ => exact lhsIdx_row D hln hlb _ _
    | ⟨1, _⟩ => exact (D.lhsIdx_val_of_single hlc _ _).trans hk
  · match a with
    | ⟨0, _⟩ => exact rhsIdx_row D hln hrn hlb hrb _ _
    | ⟨1, _⟩ => exact (D.rhsIdx_val_of_single hrc _ _).trans hk

end Cert.LibMatmulNT

end
-- ==== Proof.LibPlainMatmul.lean ====
import Idealize.ShloMosaic.Lib.ValueIdx
import Idealize.ShloMosaic.PureOps.Ideal.Laws

/-!
# A plain matrix product read at an index

The product of a left operand `[M, K]` and a right operand `[K, N]` into a zero accumulator `[M, N]` — contracting the
left operand's axis 1 with the right operand's axis 0, no batch axis — has, over the extended reals, at `(p, q)` the
element `∑ k, l[p, k] · r[k, q]`: the contraction index is its one coordinate, the left operand's index at `(p, q)`
and `k` is `(p, k)`, the right operand's `(k, q)`.

The statement comes twice: for the record of dimension numbers written out with its well-formedness proof as an
argument (`…_lit`), and for an arbitrary record whose fields are fixed by equations (each `rfl` for a literal record).
-/

noncomputable section

open scoped BigOperators

namespace Idealize.ShloMosaic.PlainMatmul

open Idealize.ShloMosaic Idealize.ShloMosaic.ValueIdx

/-- The dimension numbers of a plain product: `[M, K] · [K, N] → [M, N]`. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product into the zero accumulator, at `(p, q)`, is `∑ k, l[p, k] · r[k, q]`. -/
theorem matmul_plain_lit {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ =>
        show ((plainDims M K N wf).lhsIdx (ix2 p q) _ 0).val = p.val
        unfold DotDims.lhsIdx
        rw [dif_neg (show ¬ (0 : Fin 2) ∈ (plainDims M K N wf).lhsBatch from List.not_mem_nil),
          dif_pos (show (0 : Fin 2) ∈ (plainDims M K N wf).lhsNonContracting from List.mem_singleton.mpr rfl)]
        rfl
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ =>
        show ((plainDims M K N wf).rhsIdx (ix2 p q) _ 1).val = q.val
        unfold DotDims.rhsIdx
        rw [dif_neg (show ¬ (1 : Fin 2) ∈ (plainDims M K N wf).rhsBatch from List.not_mem_nil),
          dif_pos (show (1 : Fin 2) ∈ (plainDims M K N wf).rhsNonContracting from List.mem_singleton.mpr rfl)]
        rfl)
  rw [el, er]

/-- The same for ANY record of dimension numbers of these shapes whose fields are those of a plain product. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at hlc hrc hln hrn hlb hrb
  subst hlc hrc hln hrn hlb hrb
  exact matmul_plain_lit wf prec l r p q

end Idealize.ShloMosaic.PlainMatmul

end
-- ==== Proof.LibColumnForms.lean ====
import Idealize.ShloMosaic.Lib.ValueLayout

/-!
# Column forms read at an index

A vector kept as a one-column matrix (a sum with `keepdims`): the cast of a vector `[a]` to a column `[a, 1]`, and a
column `[a, 1]` repeated across the columns of `[a, b]`, each read at an index given by coordinates.
-/

namespace Idealize.ShloMosaic.ColumnForms

open Idealize.ShloMosaic Idealize.ShloMosaic.ValueIdx

variable {α : Type}

/-- A vector `[a]` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` repeated across the columns of `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.Payloads.lean ====
/-
  The body's arithmetic, read at an index over the extended reals.

  One step of the kernel handles a block of 2048 queries and a batch of 512 keys.  From the batch it computes the keys'
  projections and, against the kept projections of the queries, the 2048 × 512 scores; each row's new maximum is the
  larger of the old one and the batch's row maximum; the old normaliser and the old weighted sum are rescaled by
  `exp (old maximum - new maximum)` and the batch's weights `exp (score - new maximum)`, respectively those weights times
  the batch's values, are added.  Each lemma below reads one of these quantities at given coordinates.
-/
import proofs.«169537_j2972117369444_2_alg».proof.Proof.Gen.KernelIdeal.Skeleton
import proofs.«169537_j2972117369444_2_alg».proof.Proof.Spec
import proofs.«169537_j2972117369444_2_alg».proof.Proof.LibMatmulNT
import proofs.«169537_j2972117369444_2_alg».proof.Proof.LibPlainMatmul
import proofs.«169537_j2972117369444_2_alg».proof.Proof.LibColumnForms
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open Idealize.ShloMosaic.ColumnForms Cert.Attn
open scoped BigOperators

/-! ## Reductions along a row of a [2048, 512] block -/

/-- The fold of `max` from `⊥` over a finite set is the supremum. -/
theorem fold_max_bot {ι : Type*} [DecidableEq ι] (s : Finset ι) (f : ι → EReal) : s.fold max ⊥ f = s.sup f := by
  induction s using Finset.induction_on with
  | empty => rfl
  | insert a s ha ih => rw [Finset.fold_insert ha, Finset.sup_insert, ih]

/-- A sum along the rows: at row `p` the sum over the 512 columns. -/
theorem rowSum_apply (src : FVec Ideal S2048x512 .f32) (h : S2048x512.Reduces [1] S2048) (hφ : FKind.Formats .f32)
    (hacc : (0x00000000#32 : BitVec 32) = FKind.add.neutral .f32 hφ) (p : Fin 2048) :
    multiReduction .add [1] S2048 src 0x00000000#32 h hφ hacc (ix1 p) = ∑ j : Fin 512, src (ix2 p j) :=
  (Ideal.multiReduction_add_single src _ h hφ hacc (ix1 p)).trans
    (Finset.sum_congr rfl fun k _ => congrArg src (funext fun a => Fin.ext (by match a with | ⟨0, _⟩ => rfl | ⟨1, _⟩ => rfl)))

/-- A maximum along the rows, started from minus infinity: at row `p` the supremum over the 512 columns. -/
theorem rowMax_apply (src : FVec Ideal S2048x512 .f32) (h : S2048x512.Reduces [1] S2048) (hφ : FKind.Formats .f32)
    (hacc : (0xFF800000#32 : BitVec 32) = FKind.maximumf.neutral .f32 hφ) (p : Fin 2048) :
    multiReduction .maximumf [1] S2048 src 0xFF800000#32 h hφ hacc (ix1 p)
      = (Finset.univ : Finset (Fin 512)).sup fun j => src (ix2 p j) := by
  refine (Ideal.multiReduction_maximumf_single src _ h hφ hacc (ix1 p)).trans ?_
  refine (congrArg (fun b => (Finset.univ : Finset (Fin (S2048x512.size 1))).fold max b (src ∘ h.lift (ix1 p)))
    (ofBits_neg_inf : FloatOps.ofBits (F := Ideal) .f32 0xFF800000#32 = ⊥)).trans ?_
  refine (fold_max_bot _ _).trans ?_
  exact congrArg (Finset.sup Finset.univ) (funext fun k => congrArg src (funext fun a => Fin.ext (by
    match a with | ⟨0, _⟩ => rfl | ⟨1, _⟩ => rfl)))

/-! ## A projection: rows times the transposed weights, plus the bias repeated down the rows -/

/-- Row `r` of `Z · Wᵀ + b` at coordinate `d`, for a block of `N` rows. -/
theorem dense_apply {N : ℕ} (D : DotDims ⟨2, ![N, 256]⟩ ⟨2, ![128, 256]⟩ ⟨2, ![N, 128]⟩)
    (hlc : D.lhsContracting = [1]) (hrc : D.rhsContracting = [1]) (hln : D.lhsNonContracting = [0])
    (hrn : D.rhsNonContracting = [0]) (hlb : D.lhsBatch = []) (hrb : D.rhsBatch = [])
    (Z : FVec Ideal ⟨2, ![N, 256]⟩ .f32) (W : FVec Ideal ⟨2, ![128, 256]⟩ .f32) (b : FVec Ideal ⟨1, ![128]⟩ .f32)
    (hz : FTy.bits .bf16 < FTy.bits .f32)
    (h1 : (⟨1, ![128]⟩ : Shape).ShapeCasts ⟨2, ![1, 128]⟩) (h2 : (⟨2, ![1, 128]⟩ : Shape).Broadcasts ⟨2, ![N, 128]⟩)
    (r : Fin N) (d : Fin 128) :
    addf (matmul D none (truncf .bf16 Z hz) (truncf .bf16 W hz) (constant ⟨2, ![N, 128]⟩ .f32 0x00000000#32))
        (broadcastTo ⟨2, ![N, 128]⟩ (shapeCast ⟨2, ![1, 128]⟩ b h1) h2) (ix2 r d)
      = proj Z W b r d := by
  show FloatOps.matmul D none (truncf .bf16 Z hz) (truncf .bf16 W hz) (constant ⟨2, ![N, 128]⟩ .f32 0x00000000#32) (ix2 r d)
      + broadcastTo ⟨2, ![N, 128]⟩ (shapeCast ⟨2, ![1, 128]⟩ b h1) h2 (ix2 r d) = _
  rw [Cert.LibMatmulNT.matmul_nt_apply D hlc hrc hln hrn hlb hrb, broadcastTo_1b_ab_apply, shapeCast_a_1a_apply]
  rfl

/-- The kept projections of a block of 2048 queries. -/
theorem qry_apply (x0 : FVec Ideal S2048x256 .f32) (x3 : FVec Ideal S128x256 .f32) (x4 : FVec Ideal S128 .f32)
    (p : Fin 2048) (d : Fin 128) : k0_pay5 (F := Ideal) x0 x3 x4 (ix2 p d) = proj x0 x3 x4 p d := by
  unfold k0_pay5
  rw [shapeCast_self]
  exact dense_apply _ rfl rfl rfl rfl rfl rfl x0 x3 x4 _ _ _ p d

/-- A batch's values: each feature row scaled by its key's factor. -/
theorem val_apply (x1 : FVec Ideal S512x256 .f32) (x2 : FVec Ideal S512 .f32) (j : Fin 512) (c : Fin 256) :
    k0_pay9 (F := Ideal) x1 x2 (ix2 j c) = x2 (ix1 j) * x1 (ix2 j c) := by
  unfold k0_pay9
  show broadcastTo S512x256 (shapeCast S512x1 x2 _) _ (ix2 j c) * x1 (ix2 j c) = _
  rw [broadcastTo_a1_ab_apply, shapeCast_a_a1_apply]

/-! ## The scores of a block of queries against a batch of keys -/

/-- The score at `(p, j)`: the inner product of the kept query projection `q[p, ·]` with the key's projection, times the
    scale; the fill where the mask word is not zero. -/
theorem score_apply (x1 : FVec Ideal S512x256 .f32) (x5 : FVec Ideal S128x256 .f32) (x6 : FVec Ideal S128 .f32)
    (q : FVec Ideal S2048x128 .f32) (x7 : IVec S2048x512 32) (p : Fin 2048) (j : Fin 512) :
    k0_pay10 (F := Ideal) x1 x5 x6 q x7 (ix2 p j)
      = Scalar.select (IntOp.cmpi .ne (x7 (ix2 p j)) 0#32) fill ((∑ d : Fin 128, q (ix2 p d) * proj x1 x5 x6 j d) * scale) := by
  unfold k0_pay10
  show Scalar.select (IntOp.cmpi .ne (x7 (ix2 p j)) 0#32) (Ideal.ofBits .f32 0xCF800000#32)
    (FloatOps.matmul dot_S2048x128_S512x128_S2048x512_1_1_0_0_n_n none (truncf .bf16 q _) (truncf .bf16 _ _)
        (constant S2048x512 .f32 0x00000000#32) (ix2 p j) * Ideal.ofBits .f32 0x3DB504F3#32) = _
  rw [Cert.LibMatmulNT.matmul_nt_apply _ rfl rfl rfl rfl rfl rfl]
  refine congrArg (fun s => Scalar.select _ fill (s * scale)) (Finset.sum_congr rfl fun d _ => ?_)
  exact congrArg (q (ix2 p d) * ·) (dense_apply _ rfl rfl rfl rfl rfl rfl x1 x5 x6 _ _ _ j d)

/-! ## The running maximum, the rescaling factor, the weights

Each is first read over arbitrary blocks of scores and maxima, then applied to the body's own terms. -/

/-- An old maximum against a block's row maximum, at row `p`. -/
theorem max_rowMax_apply (mo : FVec Ideal S2048x1 .f32) (s : FVec Ideal S2048x512 .f32) (h : S2048x512.Reduces [1] S2048)
    (hφ : FKind.Formats .f32) (hacc : (0xFF800000#32 : BitVec 32) = FKind.maximumf.neutral .f32 hφ)
    (hc : S2048.ShapeCasts S2048x1) (p : Fin 2048) :
    maximumf mo (shapeCast S2048x1 (multiReduction .maximumf [1] S2048 s 0xFF800000#32 h hφ hacc) hc) (ix2 p (0 : Fin 1))
      = max (mo (ix2 p (0 : Fin 1))) ((Finset.univ : Finset (Fin 512)).sup fun j => s (ix2 p j)) := by
  show max (mo (ix2 p (0 : Fin 1))) (shapeCast S2048x1 (multiReduction .maximumf [1] S2048 s 0xFF800000#32 h hφ hacc) hc (ix2 p (0 : Fin 1))) = _
  rw [shapeCast_a_a1_apply]
  exact congrArg (max _) (rowMax_apply s h hφ hacc p)

/-- The exponential of a difference of two columns, at row `p`. -/
theorem exp_sub_apply (a b : FVec Ideal S2048x1 .f32) (i : S2048x1.Idx) : exp (subf a b) i = Ideal.exp (a i - b i) := rfl

/-- The exponential of a block of scores minus a column of maxima repeated along the rows, at `(p, j)`. -/
theorem exp_sub_bcast_apply (s : FVec Ideal S2048x512 .f32) (mn : FVec Ideal S2048x1 .f32)
    (h : S2048x1.Broadcasts S2048x512) (p : Fin 2048) (j : Fin 512) :
    exp (subf s (broadcastTo S2048x512 mn h)) (ix2 p j) = Ideal.exp (s (ix2 p j) - mn (ix2 p (0 : Fin 1))) := by
  show Ideal.exp (s (ix2 p j) - broadcastTo S2048x512 mn h (ix2 p j)) = _
  rw [broadcastTo_a1_ab_apply]

/-- The new running maximum of row `p`: the old one against the batch's row maximum. -/
theorem newMax_apply (x1 : FVec Ideal S512x256 .f32) (x5 : FVec Ideal S128x256 .f32) (x6 : FVec Ideal S128 .f32)
    (q : FVec Ideal S2048x128 .f32) (x7 : IVec S2048x512 32) (mo : FVec Ideal S2048x1 .f32) (p : Fin 2048) :
    k0_pay11 (F := Ideal) x1 x5 x6 q x7 mo (ix2 p (0 : Fin 1))
      = max (mo (ix2 p (0 : Fin 1))) ((Finset.univ : Finset (Fin 512)).sup fun j => k0_pay10 (F := Ideal) x1 x5 x6 q x7 (ix2 p j)) := by
  unfold k0_pay11
  exact max_rowMax_apply mo _ _ _ _ _ p

/-- The rescaling factor of row `p`. -/
theorem rescale_apply (x1 : FVec Ideal S512x256 .f32) (x5 : FVec Ideal S128x256 .f32) (x6 : FVec Ideal S128 .f32)
    (q : FVec Ideal S2048x128 .f32) (x7 : IVec S2048x512 32) (mo : FVec Ideal S2048x1 .f32) (p : Fin 2048) :
    k0_pay12 (F := Ideal) x1 x5 x6 q x7 mo (ix2 p (0 : Fin 1))
      = Ideal.exp (mo (ix2 p (0 : Fin 1)) - k0_pay11 (F := Ideal) x1 x5 x6 q x7 mo (ix2 p (0 : Fin 1))) := by
  unfold k0_pay12
  exact exp_sub_apply mo _ _

/-- The weight of key `j` in row `p`. -/
theorem weight_apply (x1 : FVec Ideal S512x256 .f32) (x5 : FVec Ideal S128x256 .f32) (x6 : FVec Ideal S128 .f32)
    (q : FVec Ideal S2048x128 .f32) (x7 : IVec S2048x512 32) (mo : FVec Ideal S2048x1 .f32) (p : Fin 2048) (j : Fin 512) :
    k0_pay13 (F := Ideal) x1 x5 x6 q x7 mo (ix2 p j)
      = Ideal.exp (k0_pay10 (F := Ideal) x1 x5 x6 q x7 (ix2 p j) - k0_pay11 (F := Ideal) x1 x5 x6 q x7 mo (ix2 p (0 : Fin 1))) := by
  unfold k0_pay13
  exact exp_sub_bcast_apply _ _ _ p j

/-! ## The normaliser, the weighted sum, the final quotient -/

/-- The new normaliser of row `p`: the old one rescaled plus the batch's weights. -/
theorem newDen_apply (a : FVec Ideal S2048x1 .f32) (w : FVec Ideal S2048x512 .f32) (lo : FVec Ideal S2048x1 .f32) (p : Fin 2048) :
    k0_pay1 (F := Ideal) a w lo (ix2 p (0 : Fin 1))
      = a (ix2 p (0 : Fin 1)) * lo (ix2 p (0 : Fin 1)) + ∑ j : Fin 512, w (ix2 p j) := by
  unfold k0_pay1
  rw [shapeCast_self]
  show a (ix2 p (0 : Fin 1)) * lo (ix2 p (0 : Fin 1)) + shapeCast S2048x1 (multiReduction .add [1] S2048 w 0x00000000#32 _ _ _) _ (ix2 p (0 : Fin 1)) = _
  rw [shapeCast_a_a1_apply]
  exact congrArg (_ + ·) (rowSum_apply w _ _ _ p)

/-- The new weighted sum at `(p, c)`: the old one rescaled plus the batch's weights times its values. -/
theorem newNum_apply (v : FVec Ideal S512x256 .bf16) (a : FVec Ideal S2048x1 .f32) (w : FVec Ideal S2048x512 .f32)
    (oo : FVec Ideal S2048x256 .f32) (p : Fin 2048) (c : Fin 256) :
    k0_pay2 (F := Ideal) v a w oo (ix2 p c)
      = a (ix2 p (0 : Fin 1)) * oo (ix2 p c) + ∑ j : Fin 512, w (ix2 p j) * v (ix2 j c) := by
  unfold k0_pay2
  rw [shapeCast_self]
  show broadcastTo S2048x256 a _ (ix2 p c) * oo (ix2 p c)
    + FloatOps.matmul dot_S2048x512_S512x256_S2048x256_1_0_0_1_n_n none (truncf .bf16 w _) v (constant S2048x256 .f32 0x00000000#32) (ix2 p c) = _
  rw [broadcastTo_a1_ab_apply, Idealize.ShloMosaic.PlainMatmul.matmul_plain_apply _ rfl rfl rfl rfl rfl rfl]
  rfl

/-- The final quotient at `(p, c)`. -/
theorem quot_apply (oo : FVec Ideal S2048x256 .f32) (l : FVec Ideal S2048x1 .f32) (p : Fin 2048) (c : Fin 256) :
    k0_pay4 (F := Ideal) oo l (ix2 p c) = Ideal.div (oo (ix2 p c)) (l (ix2 p (0 : Fin 1))) := by
  unfold k0_pay4
  rw [shapeCast_self]
  show Ideal.div (oo (ix2 p c)) (broadcastTo S2048x256 l _ (ix2 p c)) = _
  rw [broadcastTo_a1_ab_apply]

/-! ## The reset state -/

/-- The reset running maximum is minus infinity. -/
theorem resetMax_apply (i : S2048x1.Idx) : k0_pay6 (F := Ideal) i = ⊥ := by
  unfold k0_pay6
  rw [shapeCast_self]
  exact ofBits_neg_inf

/-- The reset normaliser is zero. -/
theorem resetDen_apply (i : S2048x1.Idx) : k0_pay7 (F := Ideal) i = 0 := by
  unfold k0_pay7
  rw [shapeCast_self]
  exact Ideal.ofBits_zero_f32

/-- The reset weighted sum is zero. -/
theorem resetNum_apply (i : S2048x256.Idx) : k0_pay8 (F := Ideal) i = 0 := by
  unfold k0_pay8
  exact Ideal.ofBits_zero_f32

/-- The running maximum is stored as it is. -/
theorem keptMax_apply (mn : FVec Ideal S2048x1 .f32) : k0_pay3 (F := Ideal) mn = mn := by
  unfold k0_pay3
  rw [shapeCast_self]

end Cert.KernelIdeal.Pay

end
-- ==== Proof.Reals.lean ====
/-
  Real-valuedness is kept by the arithmetic of the specification: a finite sum, a sum or a product of extended reals
  that are real numbers is a real number.  So when every entry of the argument arrays is real, every projection, every
  score and every value is: in particular no score is `⊤` or `⊥`.
-/
import proofs.«169537_j2972117369444_2_alg».proof.Proof.Spec

noncomputable section

namespace Cert.Attn

open Idealize.ShloMosaic Idealize.ShloMosaic.ValueIdx Cert.Lib.OnlineSoftmax
open scoped BigOperators

/-- An extended real that is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} [DecidableEq ι] (s : Finset ι) (f : ι → EReal) (h : ∀ i ∈ s, IsReal (f i)) :
    IsReal (∑ i ∈ s, f i) := by
  choose! g hg using h
  exact ⟨∑ i ∈ s, g i, by rw [Finset.sum_congr rfl hg, coe_sum]⟩

theorem IsReal.ne_top {x : EReal} (h : IsReal x) : x ≠ ⊤ := by obtain ⟨a, rfl⟩ := h; exact EReal.coe_ne_top a
theorem IsReal.ne_bot {x : EReal} (h : IsReal x) : x ≠ ⊥ := by obtain ⟨a, rfl⟩ := h; exact EReal.coe_ne_bot a

theorem proj_real {n : ℕ} {Z : (⟨2, ![n, 256]⟩ : Shape).Idx → EReal} {W : (⟨2, ![128, 256]⟩ : Shape).Idx → EReal}
    {b : (⟨1, ![128]⟩ : Shape).Idx → EReal} (hZ : ∀ i, IsReal (Z i)) (hW : ∀ i, IsReal (W i)) (hb : ∀ i, IsReal (b i))
    (r : Fin n) (d : Fin 128) : IsReal (proj Z W b r d) :=
  (IsReal.sum _ _ fun k _ => (hZ _).mul (hW _)).add (hb _)

section
variable {X Y : (⟨2, ![8192, 256]⟩ : Shape).Idx → EReal} {fx : (⟨1, ![8192]⟩ : Shape).Idx → EReal}
  {msk : (⟨2, ![8192, 8192]⟩ : Shape).Idx → BitVec 1}
  {Wq : (⟨2, ![128, 256]⟩ : Shape).Idx → EReal} {bq : (⟨1, ![128]⟩ : Shape).Idx → EReal}
  {Wk : (⟨2, ![128, 256]⟩ : Shape).Idx → EReal} {bk : (⟨1, ![128]⟩ : Shape).Idx → EReal}

/-- Every score is a real number. -/
theorem score_real (hX : ∀ i, IsReal (X i)) (hY : ∀ i, IsReal (Y i)) (hWq : ∀ i, IsReal (Wq i)) (hbq : ∀ i, IsReal (bq i))
    (hWk : ∀ i, IsReal (Wk i)) (hbk : ∀ i, IsReal (bk i)) (n j : Fin 8192) : IsReal (score X Y msk Wq bq Wk bk n j) := by
  unfold score
  split
  · exact fill_real
  · exact (IsReal.sum _ _ fun d _ => (proj_real hX hWq hbq n d).mul (proj_real hY hWk hbk j d)).mul scale_real

/-- Every value is a real number. -/
theorem value_real (hY : ∀ i, IsReal (Y i)) (hfx : ∀ i, IsReal (fx i)) (j : Fin 8192) (c : Fin 256) :
    IsReal (value Y fx j c) := (hfx _).mul (hY _)
end

end Cert.Attn

end
-- ==== Proof.Step.lean ====
/-
  One step of the kernel, as a step of the online-softmax recurrence.

  Fix a query row `r` and let `t j` be its score against key `j`.  Before batch `k` is absorbed the running maximum, the
  normaliser and (for a column `c`) the weighted sum are the closed forms over the keys of the batches before `k`.  The
  step computes the batch's 512 scores, which are `t` at the batch's keys, takes the larger of the old maximum and their
  supremum, rescales the two sums by `exp (old maximum - new maximum)` and adds the batch's weights, respectively its
  weights times its values.  This is the recurrence's `absorb`, so the new state is the closed form over the keys of
  the batches before `k + 1` (the two key sets being disjoint).  After batch 15 the closed forms run over all keys, and
  their quotient is the softmax-weighted sum of the values.
-/
import proofs.«169537_j2972117369444_2_alg».proof.Proof.Payloads
import proofs.«169537_j2972117369444_2_alg».proof.Proof.Tiles
import proofs.«169537_j2972117369444_2_alg».proof.Proof.Reals

noncomputable section

namespace Cert.KernelIdeal.Step

open Cert.KernelIdeal Cert.KernelIdeal.Gen Cert.KernelIdeal.Pay Idealize.ShloMosaic Idealize.ShloMosaic.ValueIdx
open Cert.Attn Cert.Attn.Tiles Cert.Lib.OnlineSoftmax
open scoped BigOperators

variable (X Y : (⟨2, ![8192, 256]⟩ : Shape).Idx → EReal) (fx : (⟨1, ![8192]⟩ : Shape).Idx → EReal)
  (msk : (⟨2, ![8192, 8192]⟩ : Shape).Idx → BitVec 1)
  (Wq : (⟨2, ![128, 256]⟩ : Shape).Idx → EReal) (bq : (⟨1, ![128]⟩ : Shape).Idx → EReal)
  (Wk : (⟨2, ![128, 256]⟩ : Shape).Idx → EReal) (bk : (⟨1, ![128]⟩ : Shape).Idx → EReal)

/-- What a step at query row `r` (position `p` of its block) and batch `k` reads: the batch's feature rows, factors and
    mask words are those of the batch's keys, the key-side weights and bias are the arguments', and the kept
    projections at position `p` are row `r`'s. -/
structure Reads (r : Fin 8192) (k : Fin 16) (p : Fin 2048)
    (x1 : FVec Ideal S512x256 .f32) (x2 : FVec Ideal S512 .f32) (x5 : FVec Ideal S128x256 .f32) (x6 : FVec Ideal S128 .f32)
    (q : FVec Ideal S2048x128 .f32) (x7 : IVec S2048x512 32) : Prop where
  feat : ∀ j kk, x1 (ix2 j kk) = Y (ix2 (key k j) kk)
  fac : ∀ j, x2 (ix1 j) = fx (ix1 (key k j))
  wk : x5 = Wk
  bk : x6 = bk
  qry : ∀ d, q (ix2 p d) = proj X Wq bq r d
  mask : ∀ j, IntOp.cmpi .ne (x7 (ix2 p j)) 0#32 = msk (ix2 r (key k j))

variable {X Y fx msk Wq bq Wk bk}
variable {r : Fin 8192} {k : Fin 16} {p : Fin 2048}
  {x1 : FVec Ideal S512x256 .f32} {x2 : FVec Ideal S512 .f32} {x5 : FVec Ideal S128x256 .f32} {x6 : FVec Ideal S128 .f32}
  {q : FVec Ideal S2048x128 .f32} {x7 : IVec S2048x512 32}

/-- The batch's scores are the row's scores at the batch's keys. -/
theorem batch_score (h : Reads X Y fx msk Wq bq Wk bk r k p x1 x2 x5 x6 q x7) (j : Fin 512) :
    k0_pay10 (F := Ideal) x1 x5 x6 q x7 (ix2 p j) = score X Y msk Wq bq Wk bk r (key k j) := by
  have hk : ∀ d, proj x1 x5 x6 j d = proj Y Wk bk (key k j) d := fun d => by
    unfold proj
    rw [h.wk, h.bk]
    exact congrArg (· + _) (Finset.sum_congr rfl fun kk _ => by rw [h.feat])
  rw [score_apply, h.mask j]
  unfold score
  refine congrArg (fun s => if msk (ix2 r (key k j)) = 1 then fill else s * scale) (Finset.sum_congr rfl fun d _ => ?_)
  rw [h.qry, hk]

/-- The batch's values are the values of the batch's keys. -/
theorem batch_value (h : Reads X Y fx msk Wq bq Wk bk r k p x1 x2 x5 x6 q x7) (j : Fin 512) (c : Fin 256) :
    k0_pay9 (F := Ideal) x1 x2 (ix2 j c) = value Y fx (key k j) c := by
  rw [val_apply, h.fac, h.feat]; rfl

variable {mo lo : FVec Ideal S2048x1 .f32} {oo : FVec Ideal S2048x256 .f32}

/-- The new running maximum, over the old closed form. -/
theorem newMax_eq (h : Reads X Y fx msk Wq bq Wk bk r k p x1 x2 x5 x6 q x7)
    (hm : mo (ix2 p (0 : Fin 1)) = mx (score X Y msk Wq bq Wk bk r) (seen k.val)) :
    k0_pay11 (F := Ideal) x1 x5 x6 q x7 mo (ix2 p (0 : Fin 1)) = mx (score X Y msk Wq bq Wk bk r) (seen (k.val + 1)) := by
  rw [newMax_apply, hm, seen_succ, mx_union, sup_batch]
  exact congrArg (max _) (congrArg (Finset.sup Finset.univ) (funext fun j => batch_score h j))

section
variable (ht : ∀ n j, IsReal (score X Y msk Wq bq Wk bk n j))
include ht

/-- The new normaliser is the closed form over the keys seen after the batch. -/
theorem newDen_eq (h : Reads X Y fx msk Wq bq Wk bk r k p x1 x2 x5 x6 q x7)
    (hm : mo (ix2 p (0 : Fin 1)) = mx (score X Y msk Wq bq Wk bk r) (seen k.val))
    (hl : lo (ix2 p (0 : Fin 1)) = den (score X Y msk Wq bq Wk bk r) (seen k.val)) :
    k0_pay1 (F := Ideal) (k0_pay12 x1 x5 x6 q x7 mo) (k0_pay13 x1 x5 x6 q x7 mo) lo (ix2 p (0 : Fin 1))
      = den (score X Y msk Wq bq Wk bk r) (seen (k.val + 1)) := by
  rw [newDen_apply, rescale_apply, newMax_eq h hm, hm, hl, seen_succ,
    den_union (fun j => (ht r j).ne_top) (seen_disjoint k), sum_batch]
  refine congrArg₂ (· + ·) rfl (Finset.sum_congr rfl fun j _ => ?_)
  rw [weight_apply, newMax_eq h hm, batch_score h, seen_succ]

/-- The new weighted sum of column `c` is the closed form over the keys seen after the batch. -/
theorem newNum_eq (hv : ∀ j c, IsReal (value Y fx j c)) (h : Reads X Y fx msk Wq bq Wk bk r k p x1 x2 x5 x6 q x7)
    (hm : mo (ix2 p (0 : Fin 1)) = mx (score X Y msk Wq bq Wk bk r) (seen k.val)) (c : Fin 256)
    (ho : oo (ix2 p c) = num (score X Y msk Wq bq Wk bk r) (fun j => value Y fx j c) (seen k.val)) :
    k0_pay2 (F := Ideal) (k0_pay9 x1 x2) (k0_pay12 x1 x5 x6 q x7 mo) (k0_pay13 x1 x5 x6 q x7 mo) oo (ix2 p c)
      = num (score X Y msk Wq bq Wk bk r) (fun j => value Y fx j c) (seen (k.val + 1)) := by
  rw [newNum_apply, rescale_apply, newMax_eq h hm, hm, ho, seen_succ,
    num_union (fun j => (ht r j).ne_top) (fun j => hv j c) (seen_disjoint k), sum_batch]
  refine congrArg₂ (· + ·) rfl (Finset.sum_congr rfl fun j _ => ?_)
  rw [weight_apply, newMax_eq h hm, batch_score h, batch_value h, seen_succ]

/-- After the last batch the quotient of the two closed forms is the specification's result. -/
theorem quot_eq (hv : ∀ j c, IsReal (value Y fx j c)) (c : Fin 256) :
    Ideal.div (num (score X Y msk Wq bq Wk bk r) (fun j => value Y fx j c) (seen 16))
        (den (score X Y msk Wq bq Wk bk r) (seen 16))
      = out X Y fx msk Wq bq Wk bk r c := by
  rw [seen_all, ← softmax_eq (fun j => (ht r j).ne_top) (fun j => hv j c)
    ⟨⟨0, by decide⟩, Finset.mem_univ _, (ht r _).ne_bot⟩]
  rfl
end

end Cert.KernelIdeal.Step

end
-- ==== Proof.Invariant.lean ====
/-
  The carried state, point by point, in closed form.

  Within a row of blocks the sixteen points absorb the sixteen batches of keys in order.  After the point that absorbs
  batch `k`, for every position `p` of the query block (query `r`): the kept projections are query `r`'s; the running
  maximum and the normaliser are the maximum of, and the sum of the weights over, the keys of batches `0 … k`; and for
  every column the output block holds the weighted sum of the values over those keys — except after the last batch,
  where it holds that weighted sum divided by the normaliser, which is the specification's result.  The proof goes
  point by point: the first point of a row starts from the reset state (the closed form over no key), every other
  point from what the point before left.
-/
import proofs.«169537_j2972117369444_2_alg».proof.Proof.State
import proofs.«169537_j2972117369444_2_alg».proof.Proof.Step
import proofs.«169537_j2972117369444_2_alg».proof.Proof.Blocks

set_option maxRecDepth 16384

noncomputable section

namespace Cert.KernelIdeal.Inv

open Cert.KernelIdeal Cert.KernelIdeal.Gen Cert.KernelIdeal.Pay Cert.KernelIdeal.Step Cert.KernelIdeal.Blocks
open Idealize.ShloMosaic Idealize.ShloMosaic.TcCoe Idealize.SL.Sem Idealize.ShloMosaic.ValueIdx
open Cert.Attn Cert.Attn.Tiles Cert.Lib.OnlineSoftmax
open scoped BigOperators

variable (m : (ℓ : Loc nD τ sig) → Buf (Elt Ideal) ℓ) (c : Dev nD)

/-- The argument arrays on core `c`, as launched. -/
abbrev aX : S8192x256.Idx → EReal := m ((c : Thread nD τ).loc main_arg0)
abbrev aY : S8192x256.Idx → EReal := m ((c : Thread nD τ).loc main_arg1)
abbrev aF : S8192.Idx → EReal := m ((c : Thread nD τ).loc main_arg2)
abbrev aM : S8192x8192.Idx → BitVec 1 := m ((c : Thread nD τ).loc main_arg3)
abbrev aWq : S128x256.Idx → EReal := m ((c : Thread nD τ).loc main_arg4)
abbrev abq : S128.Idx → EReal := m ((c : Thread nD τ).loc main_arg5)
abbrev aWk : S128x256.Idx → EReal := m ((c : Thread nD τ).loc main_arg6)
abbrev abk : S128.Idx → EReal := m ((c : Thread nD τ).loc main_arg7)

/-- What a point's loads are, given what its kept projections are. -/
theorem reads (t : Fin cfg0.N) (p : Fin 2048) (q : FVec Ideal S2048x128 .f32)
    (hq : ∀ d, q (ix2 p d) = proj (aX m c) (aWq m c) (abq m c) (row t p) d) :
    Reads (aX m c) (aY m c) (aF m c) (aM m c) (aWq m c) (abq m c) (aWk m c) (abk m c) (row t p) (bat t) p
      (B1 m c t) (B2 m c t) (B5 m c t) (B6 m c t) q (B7 m c t) where
  feat := fun j kk => blk1 m c t j kk
  fac := fun j => blk2 m c t j
  wk := blk5 m c t
  bk := blk6 m c t
  qry := hq
  mask := fun j => blk7 m c t p j

/-- The projections the first point of a row of blocks computes are those of the block's queries. -/
theorem qry_first (t : Fin cfg0.N) (p : Fin 2048) (d : Fin 128) :
    k0_pay5 (F := Ideal) (B0 m c t) (B3 m c t) (B4 m c t) (ix2 p d)
      = proj (aX m c) (aWq m c) (abq m c) (row t p) d :=
  (qry_apply (B0 m c t) (B3 m c t) (B4 m c t) p d).trans
    (congrArg₂ (· + ·)
      (Finset.sum_congr rfl fun kk _ => congrArg₂ (· * ·) (blk0 m c t p kk) (congrFun (blk3 m c t) (ix2 d kk)))
      (congrFun (blk4 m c t) (ix1 d)))

/-- The closed form of the carried state after point `t`. -/
structure Holds (t : Fin cfg0.N) : Prop where
  qry : ∀ (p : Fin 2048) (d : Fin 128),
    (outsAt0 m c t.val t.isLt).2.2.2 (ix2 p d) = proj (aX m c) (aWq m c) (abq m c) (row t p) d
  mx : ∀ p : Fin 2048,
    (outsAt0 m c t.val t.isLt).2.1 (ix2 p (0 : Fin 1)) = mx (score (aX m c) (aY m c) (aM m c) (aWq m c) (abq m c) (aWk m c) (abk m c) (row t p)) (seen ((bat t).val + 1))
  den : ∀ p : Fin 2048,
    (outsAt0 m c t.val t.isLt).2.2.1 (ix2 p (0 : Fin 1)) = den (score (aX m c) (aY m c) (aM m c) (aWq m c) (abq m c) (aWk m c) (abk m c) (row t p)) (seen ((bat t).val + 1))
  num : ∀ (p : Fin 2048) (c' : Fin 256), (bat t).val ≠ 15 →
    (outsAt0 m c t.val t.isLt).1 (ix2 p c')
      = num (score (aX m c) (aY m c) (aM m c) (aWq m c) (abq m c) (aWk m c) (abk m c) (row t p)) (fun j => value (aY m c) (aF m c) j c') (seen ((bat t).val + 1))
  fin : ∀ (p : Fin 2048) (c' : Fin 256), (bat t).val = 15 →
    (outsAt0 m c t.val t.isLt).1 (ix2 p c') = out (aX m c) (aY m c) (aF m c) (aM m c) (aWq m c) (abq m c) (aWk m c) (abk m c) (row t p) c'

section
variable (ht : ∀ n j, IsReal (score (aX m c) (aY m c) (aM m c) (aWq m c) (abq m c) (aWk m c) (abk m c) n j)) (hv : ∀ j c', IsReal (value (aY m c) (aF m c) j c'))
include ht hv

/-- The first point of a row of blocks: from the reset state. -/
theorem caseA (t : Fin cfg0.N) (h0 : t.val % 16 = 0) : Holds m c t := by
  have h1 : ¬t.val % 16 = 15 := by omega
  have hb : (bat t).val = 0 := h0
  have hR := fun p => reads m c t p (k0_pay5 (F := Ideal) (B0 m c t) (B3 m c t) (B4 m c t)) (qry_first m c t p)
  have hm : ∀ p : Fin 2048, k0_pay6 (F := Ideal) (ix2 p (0 : Fin 1))
      = Cert.Lib.OnlineSoftmax.mx (score (aX m c) (aY m c) (aM m c) (aWq m c) (abq m c) (aWk m c) (abk m c) (row t p)) (seen (bat t).val) :=
    fun p => by rw [hb, seen_zero, resetMax_apply]; rfl
  have hl : ∀ p : Fin 2048, k0_pay7 (F := Ideal) (ix2 p (0 : Fin 1))
      = Cert.Lib.OnlineSoftmax.den (score (aX m c) (aY m c) (aM m c) (aWq m c) (abq m c) (aWk m c) (abk m c) (row t p)) (seen (bat t).val) :=
    fun p => by rw [hb, seen_zero, resetDen_apply]; rfl
  have ho : ∀ (p : Fin 2048) (c' : Fin 256), k0_pay8 (F := Ideal) (ix2 p c')
      = Cert.Lib.OnlineSoftmax.num (score (aX m c) (aY m c) (aM m c) (aWq m c) (abq m c) (aWk m c) (abk m c) (row t p)) (fun j => value (aY m c) (aF m c) j c') (seen (bat t).val) :=
    fun p c' => by rw [hb, seen_zero, resetNum_apply]; rfl
  refine ⟨fun p d => ?_, fun p => ?_, fun p => ?_, fun p c' _ => ?_, fun p c' h => absurd h (by omega)⟩
  · rw [State.qry_A m c t h0 h1]; exact qry_first m c t p d
  · rw [State.max_A m c t h0 h1, keptMax_apply]; exact newMax_eq (hR p) (hm p)
  · rw [State.den_A m c t h0 h1]; exact newDen_eq ht (hR p) (hm p) (hl p)
  · rw [State.num_A m c t h0 h1]; exact newNum_eq ht hv (hR p) (hm p) c' (ho p c')

/-- What a later point of a row of blocks starts from: the closed form the point before left, re-read at this point's
    own query block and batch. -/
theorem from_prev (t : Fin cfg0.N) (h0 : ¬t.val % 16 = 0) (ih : Holds m c (⟨t.val - 1, Nat.lt_of_le_of_lt (Nat.sub_le _ _) t.isLt⟩ : Fin cfg0.N)) (p : Fin 2048) :
    (∀ d, (State.prev m c t).2.2.2 (ix2 p d) = proj (aX m c) (aWq m c) (abq m c) (row t p) d)
    ∧ (State.prev m c t).2.1 (ix2 p (0 : Fin 1)) = Cert.Lib.OnlineSoftmax.mx (score (aX m c) (aY m c) (aM m c) (aWq m c) (abq m c) (aWk m c) (abk m c) (row t p)) (seen (bat t).val)
    ∧ (State.prev m c t).2.2.1 (ix2 p (0 : Fin 1)) = Cert.Lib.OnlineSoftmax.den (score (aX m c) (aY m c) (aM m c) (aWq m c) (abq m c) (aWk m c) (abk m c) (row t p)) (seen (bat t).val)
    ∧ ∀ c', (State.prev m c t).1 (ix2 p c')
        = Cert.Lib.OnlineSoftmax.num (score (aX m c) (aY m c) (aM m c) (aWq m c) (abq m c) (aWk m c) (abk m c) (row t p)) (fun j => value (aY m c) (aF m c) j c') (seen (bat t).val) := by
  have hrow : row (⟨t.val - 1, Nat.lt_of_le_of_lt (Nat.sub_le _ _) t.isLt⟩ : Fin cfg0.N) p = row t p := Fin.ext (by rw [row_val, row_val]; dsimp only; omega)
  have hseen : (bat (⟨t.val - 1, Nat.lt_of_le_of_lt (Nat.sub_le _ _) t.isLt⟩ : Fin cfg0.N)).val + 1 = (bat t).val := by rw [bat_val, bat_val]; dsimp only; omega
  have hne : (bat (⟨t.val - 1, Nat.lt_of_le_of_lt (Nat.sub_le _ _) t.isLt⟩ : Fin cfg0.N)).val ≠ 15 := by rw [bat_val]; dsimp only; omega
  refine ⟨fun d => ?_, ?_, ?_, fun c' => ?_⟩
  · rw [← hrow]; exact ih.qry p d
  · rw [← hrow, ← hseen]; exact ih.mx p
  · rw [← hrow, ← hseen]; exact ih.den p
  · rw [← hrow, ← hseen]; exact ih.num p c' hne

/-- A middle point. -/
theorem caseB (t : Fin cfg0.N) (h0 : ¬t.val % 16 = 0) (h1 : ¬t.val % 16 = 15) (ih : Holds m c (⟨t.val - 1, Nat.lt_of_le_of_lt (Nat.sub_le _ _) t.isLt⟩ : Fin cfg0.N)) : Holds m c t := by
  have hp := from_prev m c ht hv t h0 ih
  have hR := fun p => reads m c t p (State.prev m c t).2.2.2 (hp p).1
  refine ⟨fun p d => ?_, fun p => ?_, fun p => ?_, fun p c' _ => ?_, fun p c' h => absurd h h1⟩
  · rw [State.qry_B m c t h0 h1]; exact (hp p).1 d
  · rw [State.max_B m c t h0 h1, keptMax_apply]; exact newMax_eq (hR p) (hp p).2.1
  · rw [State.den_B m c t h0 h1]; exact newDen_eq ht (hR p) (hp p).2.1 (hp p).2.2.1
  · rw [State.num_B m c t h0 h1]; exact newNum_eq ht hv (hR p) (hp p).2.1 c' ((hp p).2.2.2 c')

/-- The last point of a row of blocks: all keys have been seen, and the output block is the quotient. -/
theorem caseC (t : Fin cfg0.N) (h0 : ¬t.val % 16 = 0) (h1 : t.val % 16 = 15) (ih : Holds m c (⟨t.val - 1, Nat.lt_of_le_of_lt (Nat.sub_le _ _) t.isLt⟩ : Fin cfg0.N)) : Holds m c t := by
  have hp := from_prev m c ht hv t h0 ih
  have hR := fun p => reads m c t p (State.prev m c t).2.2.2 (hp p).1
  have h16 : (bat t).val + 1 = 16 := by rw [bat_val]; omega
  refine ⟨fun p d => ?_, fun p => ?_, fun p => ?_, fun p c' h => absurd h1 h, fun p c' _ => ?_⟩
  · rw [State.qry_C m c t h0 h1]; exact (hp p).1 d
  · rw [State.max_C m c t h0 h1, keptMax_apply]; exact newMax_eq (hR p) (hp p).2.1
  · rw [State.den_C m c t h0 h1]; exact newDen_eq ht (hR p) (hp p).2.1 (hp p).2.2.1
  · rw [State.quot_C m c t h0 h1, quot_apply, newNum_eq ht hv (hR p) (hp p).2.1 c' ((hp p).2.2.2 c'),
      newDen_eq ht (hR p) (hp p).2.1 (hp p).2.2.1, h16]
    exact quot_eq ht hv c'

/-- The closed form holds after every point. -/
theorem holds : ∀ (n : ℕ) (hn : n < cfg0.N), Holds m c ⟨n, hn⟩
  | 0, hn => caseA m c ht hv ⟨0, hn⟩ rfl
  | n + 1, hn => by
    have ih := holds n (Nat.lt_of_succ_lt hn)
    by_cases h0 : (n + 1) % 16 = 0
    · exact caseA m c ht hv ⟨n + 1, hn⟩ h0
    · by_cases h1 : (n + 1) % 16 = 15
      · exact caseC m c ht hv ⟨n + 1, hn⟩ h0 h1 ih
      · exact caseB m c ht hv ⟨n + 1, hn⟩ h0 h1 ih
end

end Cert.KernelIdeal.Inv

end
-- ==== Proof.Finite.lean ====
/-
  The precondition `finite_inputs` is the conjunction, over the seven float arguments, of "every entry has
  absolute value below +∞" (an `and`-reduction over all axes of the entrywise comparison |x| < +∞, started from 1).
  An extended real whose absolute value max x (-x) is below ⊤ is neither ⊤ nor ⊥, hence a real number. So the
  precondition makes every entry of every float argument a real.
-/
import proofs.«169537_j2972117369444_2_alg».proof.Pre_finite_inputs
import proofs.«169537_j2972117369444_2_alg».proof.Proof.Gen.Pre_finite_inputs
import Idealize.ShloMosaic.PureOps.Ideal
import Idealize.ShloMosaic.Lib.ReduceAll

noncomputable section

namespace Cert.Attn.Finite
open Cert.Pre_finite_inputs Idealize.ShloMosaic

/-- The f32 pattern 0x7F800000 (sign 0, exponent all ones, significand 0) denotes +∞. -/
theorem ofBits_inf : Ideal.ofBits .f32 0x7F800000#32 = ⊤ := by simp [Ideal.ofBits, Ideal.ieee]

/-- One entry: if |a| < +∞, with |a| = max a (-a), then a is a real number. At ⊥ the absolute value is
    max ⊥ ⊤ = ⊤ and at ⊤ it is max ⊤ ⊥ = ⊤, neither below ⊤; the remaining case is a real. -/
theorem real_of_abs_lt_inf (a : Ideal .f32)
    (h : FloatOps.cmpf .olt (FloatOps.hostAbsf a) (FloatOps.ofBits (F := Ideal) .f32 0x7F800000#32) = 1#1) :
    ∃ r : ℝ, a = r := by
  change Ideal.cmp .olt (max (a : EReal) (-(a : EReal))) (Ideal.ofBits .f32 0x7F800000#32) = 1#1 at h
  rw [ofBits_inf] at h
  unfold Ideal.cmp at h
  induction a using EReal.rec with
  | bot => simp at h
  | top => simp at h
  | coe r => exact ⟨r, rfl⟩

/-- The scalar shape has exactly one index. -/
instance : Subsingleton S_.Idx := ⟨fun a b => funext fun d => d.elim0⟩

/-- For an array x of any shape: if the `and` over all entries of "|x i| < +∞" is 1, every entry is a real.
    The reduction being 1 makes each compared entry 1; the broadcast scalar reads +∞ at every index. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1) (i : s.Idx) : ∃ r : ℝ, x i = r :=
  real_of_abs_lt_inf (x i) (Host.reduce_andi_all _ _ hr hu j e i)

theorem real_of_pre [Cert.Pre_finite_inputs.Facts]
    (x0 x1 : FVec Ideal S8192x256 .f32) (x2 : FVec Ideal S8192 .f32) (x3 : IVec S8192x8192 1)
    (x4 : FVec Ideal S128x256 .f32) (x5 : FVec Ideal S128 .f32) (x6 : FVec Ideal S128x256 .f32) (x7 : FVec Ideal S128 .f32)
    (h : Cert.Pre_finite_inputs.fn (F := Ideal) x0 x1 x2 x3 x4 x5 x6 x7 = fun _ => 1#1) :
    (∀ i, ∃ r : ℝ, x0 i = r) ∧ (∀ i, ∃ r : ℝ, x1 i = r) ∧ (∀ i, ∃ r : ℝ, x2 i = r) ∧ (∀ i, ∃ r : ℝ, x4 i = r)
      ∧ (∀ i, ∃ r : ℝ, x5 i = r) ∧ (∀ i, ∃ r : ℝ, x6 i = r) ∧ (∀ i, ∃ r : ℝ, x7 i = r) := by
  -- the result has rank 0: read the claim at its one index
  have e := congrFun h (fun a => a.elim0)
  unfold Cert.Pre_finite_inputs.fn Cert.Pre_finite_inputs.fn_part1 at e
  dsimp only at e
  -- the conjunction is left-nested: ((((((t0 ∧ t1) ∧ t2) ∧ t4) ∧ t5) ∧ t6) ∧ t7)
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h2⟩ := IntOp.andi_eq_one.1 e
  obtain ⟨h0, h1⟩ := IntOp.andi_eq_one.1 e
  exact ⟨real_of_all x0 _ _ _ _ h0, real_of_all x1 _ _ _ _ h1, real_of_all x2 _ _ _ _ h2, real_of_all x4 _ _ _ _ h4,
    real_of_all x5 _ _ _ _ h5, real_of_all x6 _ _ _ _ h6, real_of_all x7 _ _ _ _ h7⟩

end Cert.Attn.Finite

end
-- ==== Proof.KernelValue.lean ====
/-
  The result array after the run.

  The output window's block is written back after the last point of each row of blocks, when it holds the
  specification's result for the block's 2048 queries; the four blocks written back are disjoint and cover the
  8192 × 256 array (the point that covers row `n` is the last point of row of blocks `n / 2048`).  So after the run the
  array is the specification's function of the arguments at every index.  Every score and value is a real number
  because the precondition makes every entry of the float arguments real.
-/
import proofs.«169537_j2972117369444_2_alg».proof.Proof.Invariant
import proofs.«169537_j2972117369444_2_alg».proof.Proof.Finite
import proofs.«169537_j2972117369444_2_alg».proof.Proof.Gen.KernelIdeal.Value
import proofs.«169537_j2972117369444_2_alg».proof.Defs

set_option maxRecDepth 16384

noncomputable section

namespace Cert.KernelIdeal.Final

open Cert.KernelIdeal Cert.KernelIdeal.Gen Cert.KernelIdeal.Blocks Cert.KernelIdeal.Inv
open Idealize.ShloMosaic Idealize.ShloMosaic.TcCoe Idealize.SL.Sem Idealize.ShloMosaic.ValueIdx
open Idealize.ShloMosaic.Pipeline (Dat)
open Cert.Attn

variable (m : (ℓ : Loc nD τ sig) → Buf (Elt Ideal) ℓ) (ρ : Dev nD → PrngReg)

/-- The result array: the specification's function of the argument arrays as launched. -/
def G (c : Dev nD) : Buf (Elt Ideal) ((c : Thread nD τ).loc main_v1) :=
  fun i => out (aX m c) (aY m c) (aF m c) (aM m c) (aWq m c) (abq m c) (aWk m c) (abk m c) (i 0) (i 1)

/-- Under the precondition every score and every value is a real number. -/
theorem reals (hpre : Cert.Pre_KernelIdeal m) (c : Dev nD) :
    (∀ n j, IsReal (score (aX m c) (aY m c) (aM m c) (aWq m c) (abq m c) (aWk m c) (abk m c) n j)) ∧ (∀ j c', IsReal (value (aY m c) (aF m c) j c')) := by
  obtain ⟨h0, h1, h2, h4, h5, h6, h7⟩ := Cert.Attn.Finite.real_of_pre (aX m c) (aY m c) (aF m c) (aM m c) (aWq m c) (abq m c)
    (aWk m c) (abk m c) (hpre c)
  exact ⟨score_real h0 h1 h4 h5 h6 h7, value_real h1 h2⟩

/-- An index of the array is in point `t`'s block iff each coordinate is in the block's range on its axis. -/
theorem mem_blk (t : Fin cfg0.N) (i : S8192x256.Idx) :
    i ∈ ((cfg0.win 8).blk t).view.set ↔ ∀ a : Fin 2, win0_8.index t a * S2048x256.size a ≤ (i a).val
      ∧ (i a).val < win0_8.index t a * S2048x256.size a + S2048x256.size a := by
  show i ∈ ((View.whole main_v1).slice (win0_8.rect t)).set ↔ _
  rw [View.set_slice_whole, Rect.mem_set_unit]
  exact Iff.rfl

/-- Every index is in the block of a point that writes back: the last point of its row of blocks. -/
theorem cover (i : S8192x256.Idx) :
    ∃ t : Fin cfg0.N, (cfg0.win 8).flush t = true ∧ i ∈ ((cfg0.win 8).blk t).view.set := by
  have hi0 : (i 0).val < 8192 := (i 0).isLt
  have hi1 : (i 1).val < 256 := (i 1).isLt
  have hN : 16 * ((i 0).val / 2048) + 15 < cfg0.N := by rw [N64]; omega
  have hv : (⟨16 * ((i 0).val / 2048) + 15, hN⟩ : Fin cfg0.N).val = 16 * ((i 0).val / 2048) + 15 := rfl
  refine ⟨⟨16 * ((i 0).val / 2048) + 15, hN⟩, (flush0_8 _).mpr (by rw [hv]; omega), ?_⟩
  rw [mem_blk]
  intro a
  match a with
  | ⟨0, _⟩ =>
    show win0_8.index ⟨16 * ((i 0).val / 2048) + 15, hN⟩ (0 : Fin 2) * 2048 ≤ (i 0).val
      ∧ (i 0).val < win0_8.index ⟨16 * ((i 0).val / 2048) + 15, hN⟩ (0 : Fin 2) * 2048 + 2048
    rw [(idx_facts ⟨16 * ((i 0).val / 2048) + 15, hN⟩).2.2.2.2.2.2.2.2.2.2.2.2.2.1, hv]; omega
  | ⟨1, _⟩ =>
    show win0_8.index ⟨16 * ((i 0).val / 2048) + 15, hN⟩ (1 : Fin 2) * 256 ≤ (i 1).val
      ∧ (i 1).val < win0_8.index ⟨16 * ((i 0).val / 2048) + 15, hN⟩ (1 : Fin 2) * 256 + 256
    rw [(idx_facts ⟨16 * ((i 0).val / 2048) + 15, hN⟩).2.2.2.2.2.2.2.2.2.2.2.2.2.2]; omega

section
variable (hpre : Cert.Pre_KernelIdeal m)
include hpre

/-- What a point that writes back writes: the specification's function, read through the point's block. -/
theorem flushed_eq (c : Dev nD) (t : Fin cfg0.N) (hf : (cfg0.win 8).flush t = true) :
    (dats m 0 c).flushed 8 t = ((cfg0.win 8).blk t).view.read (Elt Ideal) (G m c) := by
  have h15 : t.val % 16 = 15 := (flush0_8 t).mp hf
  have hH := holds m c (reals m hpre c).1 (reals m hpre c).2 t.val t.isLt
  rw [Cert.KernelIdeal.Value.flushed8]
  funext y
  rw [View.read_apply]
  obtain ⟨p, c', rfl⟩ : ∃ (p : Fin 2048) (c' : Fin 256), y = ix2 p c' := ⟨y 0, y 1, eq_ix2 y⟩
  have e0 : (((cfg0.win 8).blk t).view.emb (ix2 p c')) 0 = row t p := Fin.ext (by
    show win0_8.index t (0 : Fin 2) * 2048 + 1 * p.val = 2048 * (t.val / 16) + p.val
    rw [(idx_facts t).2.2.2.2.2.2.2.2.2.2.2.2.2.1]; omega)
  have e1 : (((cfg0.win 8).blk t).view.emb (ix2 p c')) 1 = c' := Fin.ext (by
    show win0_8.index t (1 : Fin 2) * 256 + 1 * c'.val = c'.val
    rw [(idx_facts t).2.2.2.2.2.2.2.2.2.2.2.2.2.2]; omega)
  show (outsAt0 m c t.val t.isLt).1 (ix2 p c')
    = out (aX m c) (aY m c) (aF m c) (aM m c) (aWq m c) (abq m c) (aWk m c) (abk m c) ((((cfg0.win 8).blk t).view.emb (ix2 p c')) 0) ((((cfg0.win 8).blk t).view.emb (ix2 p c')) 1)
  rw [e0, e1]
  exact hH.fin p c' h15

/-- The result array after the run is the specification's function. -/
theorem final (c : Dev nD) : (dats m 0 c).arrAt 8 cfg0.N = G m c :=
  (dats m 0 c).arrAt_eq_of_cover 8 (G m c) (fun t hf => flushed_eq m hpre c t hf) cover

/-- The run, read: the result array at the specification's function, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m hpre c), (h c).2⟩)
    (Cert.KernelIdeal.Value.run_blocks m ρ)
end

end Cert.KernelIdeal.Final

end
-- ==== Proof.RefSide.lean ====
/-
  The reference program's result, read at one index, is the specification's function.

  The reference computes, in order: the two projections Q = X·Wqᵀ + bq and K = Y·Wkᵀ + bk (a product with the transposed
  weights, plus the bias repeated down the rows); the scores (Q·Kᵀ)·scale, replaced by a finite fill where the mask is
  set; the softmax of each row of scores (the row maximum, the exponentials of the differences from it, their sum, the
  quotients); the values V[j, c] = fx[j]·Y[j, c]; and the product of the normalised weights with the values.

  Each stage is read here at an index given by its coordinates, from the stage-by-stage reading lemmas of the generated
  module: a layout operation reads its operand at a computed index, which is identified once per stage with the index
  built from the coordinates; a product is the sum over the contracted coordinate; an elementwise operation is, over the
  extended reals, the textbook one.  The row maximum is a reduction with a maximum body started from minus infinity, that
  is the supremum over the row, and the later maximum with minus infinity leaves it unchanged.
-/
import proofs.«169537_j2972117369444_2_alg».proof.Proof.Gen.ReferenceIdeal.Read
import proofs.«169537_j2972117369444_2_alg».proof.Proof.Spec
import Idealize.ShloMosaic.Lib.ValueIdx
import Idealize.ShloMosaic.PureOps.Ideal.Laws
import Idealize.ShloMosaic.PureOps.Reduce

noncomputable section

namespace Cert.Attn.Ref

open Cert.ReferenceIdeal Idealize.ShloMosaic Idealize.ShloMosaic.ValueIdx
open Cert.Lib.OnlineSoftmax
open scoped BigOperators

/-! ## The two projections

Row `r` of a feature array times the transposed weights, plus the bias repeated down the rows. -/

theorem lidx_v1 (n : Fin 8192) (d : Fin 128) (k : Fin 256) : Read.lidx_main_v1 (ix2 n d) k = ix2 n k :=
  funext fun a => Fin.ext (by match a with | ⟨0, _⟩ => rfl | ⟨1, _⟩ => rfl)

theorem ridx_v1 (n : Fin 8192) (d : Fin 128) (k : Fin 256) :
    Read.idx_main_v0 (Read.ridx_main_v1 (ix2 n d) k) = ix2 d k :=
  funext fun a => Fin.ext (by match a with | ⟨0, _⟩ => rfl | ⟨1, _⟩ => rfl)

theorem idx_v3 (n : Fin 8192) (d : Fin 128) : Read.idx_main_v2 (Read.idx_main_v3 (ix2 n d)) = ix1 d :=
  funext fun a => Fin.ext (by match a with | ⟨0, _⟩ => rfl)

/-- The query projection at `(n, d)`. -/
theorem q_entry (x0 : FVec Ideal S8192x256 .f32) (x4 : FVec Ideal S128x256 .f32) (x5 : FVec Ideal S128 .f32)
    (n : Fin 8192) (d : Fin 128) :
    Read.val_main_v4 (F := Ideal) x0 x4 x5 (ix2 n d) = proj x0 x4 x5 n d := by
  rw [Read.val_main_v4_apply, Read.val_main_v1_apply, Read.val_main_v3_apply, Read.val_main_v2_apply]
  simp only [Read.val_main_v0_apply, lidx_v1, ridx_v1, idx_v3, Ideal.addf_def]
  rfl

theorem lidx_v6 (j : Fin 8192) (d : Fin 128) (k : Fin 256) : Read.lidx_main_v6 (ix2 j d) k = ix2 j k :=
  funext fun a => Fin.ext (by match a with | ⟨0, _⟩ => rfl | ⟨1, _⟩ => rfl)

theorem ridx_v6 (j : Fin 8192) (d : Fin 128) (k : Fin 256) :
    Read.idx_main_v5 (Read.ridx_main_v6 (ix2 j d) k) = ix2 d k :=
  funext fun a => Fin.ext (by match a with | ⟨0, _⟩ => rfl | ⟨1, _⟩ => rfl)

theorem idx_v8 (j : Fin 8192) (d : Fin 128) : Read.idx_main_v7 (Read.idx_main_v8 (ix2 j d)) = ix1 d :=
  funext fun a => Fin.ext (by match a with | ⟨0, _⟩ => rfl)

/-- The key projection at `(j, d)`. -/
theorem k_entry (x1 : FVec Ideal S8192x256 .f32) (x6 : FVec Ideal S128x256 .f32) (x7 : FVec Ideal S128 .f32)
    (j : Fin 8192) (d : Fin 128) :
    Read.val_main_v9 (F := Ideal) x1 x6 x7 (ix2 j d) = proj x1 x6 x7 j d := by
  rw [Read.val_main_v9_apply, Read.val_main_v6_apply, Read.val_main_v8_apply, Read.val_main_v7_apply]
  simp only [Read.val_main_v5_apply, lidx_v6, ridx_v6, idx_v8, Ideal.addf_def]
  rfl

/-! ## The scores

The product of the two projections contracts their second axes; it is scaled, and replaced by the fill where the
mask is set. -/

theorem lidx_v10 (n j : Fin 8192) (k : Fin 128) : Read.lidx_main_v10 (ix2 n j) k = ix2 n k :=
  funext fun a => Fin.ext (by match a with | ⟨0, _⟩ => rfl | ⟨1, _⟩ => rfl)

theorem ridx_v10 (n j : Fin 8192) (k : Fin 128) : Read.ridx_main_v10 (ix2 n j) k = ix2 j k :=
  funext fun a => Fin.ext (by match a with | ⟨0, _⟩ => rfl | ⟨1, _⟩ => rfl)

/-- The masked, scaled score at `(n, j)`. -/
theorem score_entry (x0 x1 : FVec Ideal S8192x256 .f32) (x3 : IVec S8192x8192 1)
    (x4 : FVec Ideal S128x256 .f32) (x5 : FVec Ideal S128 .f32) (x6 : FVec Ideal S128x256 .f32) (x7 : FVec Ideal S128 .f32) (n j : Fin 8192) :
    Read.val_main_v13 (F := Ideal) x0 x1 x3 x4 x5 x6 x7 (ix2 n j) = score x0 x1 x3 x4 x5 x6 x7 n j := by
  rw [Read.val_main_v13_apply, Read.val_main_call0_v1_apply, Read.val_main_call0_v0_apply, Read.val_main_cst_0_apply,
    Read.val_main_v12_apply, Read.val_main_v10_apply, Read.val_main_v11_apply, Read.val_main_cst_apply]
  simp only [lidx_v10, ridx_v10, q_entry, k_entry, Ideal.mulf_def, Ideal.ofBits_def]
  rfl

/-! ## The row maximum

A reduction with a maximum body over the key axis, from minus infinity, is the supremum of the row; the later maximum
with minus infinity changes nothing. -/

theorem reduces_rows : S8192x8192.Reduces [1] S8192 := by decide

/-- Row `n` with the key coordinate `k` put back is `(n, k)`. -/
theorem lift_row (h : S8192x8192.Reduces [1] S8192) (n : Fin 8192) (k : Fin (S8192x8192.size 1)) :
    h.lift (ix1 n) k = ix2 n (⟨k.val, k.isLt⟩ : Fin 8192) := by
  funext c; apply Fin.ext
  fin_cases c <;> rfl

/-- The row maximum at `n`. -/
theorem rowmax_entry (x0 x1 : FVec Ideal S8192x256 .f32) (x3 : IVec S8192x8192 1)
    (x4 : FVec Ideal S128x256 .f32) (x5 : FVec Ideal S128 .f32) (x6 : FVec Ideal S128x256 .f32) (x7 : FVec Ideal S128 .f32) (n : Fin 8192) :
    Read.val_main_v16 (F := Ideal) x0 x1 x3 x4 x5 x6 x7 (ix1 n) = mx (score x0 x1 x3 x4 x5 x6 x7 n) Finset.univ := by
  rw [Read.val_main_v16_apply, Read.val_main_v15_apply, Read.val_main_cst_2_apply]
  unfold Read.val_main_v14
  rw [Host.reduce_eq_fold_single FloatOps.maximumf _ _ Facts₀.reducesTo_S8192x8192_S8192_d1 reduces_rows Facts₀.h_S_,
    Read.val_main_cst_1_apply]
  have hf : (Read.val_main_v13 (F := Ideal) x0 x1 x3 x4 x5 x6 x7 ∘ reduces_rows.lift (ix1 n))
      = fun k => score x0 x1 x3 x4 x5 x6 x7 n (⟨k.val, k.isLt⟩ : Fin 8192) :=
    funext fun k => by
      show Read.val_main_v13 (F := Ideal) x0 x1 x3 x4 x5 x6 x7 (reduces_rows.lift (ix1 n) k) = _
      rw [lift_row, score_entry]
  rw [hf]
  simp only [Ideal.ofBits_def, Ideal.maximumf_def, ofBits_neg_inf]
  rw [max_eq_right bot_le]
  rfl

/-! ## The weights and the normaliser -/

theorem idx_v18 (n k : Fin 8192) : Read.idx_main_v17 (Read.idx_main_v18 (ix2 n k)) = ix1 n :=
  funext fun a => Fin.ext (by match a with | ⟨0, _⟩ => rfl)

/-- The unnormalised weight at `(n, k)`. -/
theorem weight_entry (x0 x1 : FVec Ideal S8192x256 .f32) (x3 : IVec S8192x8192 1)
    (x4 : FVec Ideal S128x256 .f32) (x5 : FVec Ideal S128 .f32) (x6 : FVec Ideal S128x256 .f32) (x7 : FVec Ideal S128 .f32) (n k : Fin 8192) :
    Read.val_main_v20 (F := Ideal) x0 x1 x3 x4 x5 x6 x7 (ix2 n k)
      = Ideal.exp (score x0 x1 x3 x4 x5 x6 x7 n k - mx (score x0 x1 x3 x4 x5 x6 x7 n) Finset.univ) := by
  rw [Read.val_main_v20_apply, Read.val_main_v19_apply, Read.val_main_v18_apply, Read.val_main_v17_apply, idx_v18,
    rowmax_entry, score_entry]
  rfl

theorem idx_v21 (n k : Fin 8192) : Read.idx_main_v21 (ix1 n) k = ix2 n k :=
  funext fun a => Fin.ext (by match a with | ⟨0, _⟩ => rfl | ⟨1, _⟩ => rfl)

/-- The normaliser of row `n`. -/
theorem den_entry (x0 x1 : FVec Ideal S8192x256 .f32) (x3 : IVec S8192x8192 1)
    (x4 : FVec Ideal S128x256 .f32) (x5 : FVec Ideal S128 .f32) (x6 : FVec Ideal S128x256 .f32) (x7 : FVec Ideal S128 .f32) (n : Fin 8192) :
    Read.val_main_v21 (F := Ideal) x0 x1 x3 x4 x5 x6 x7 (ix1 n) = den (score x0 x1 x3 x4 x5 x6 x7 n) Finset.univ := by
  rw [Read.val_main_v21_apply, Read.val_main_cst_3_apply]
  simp only [idx_v21, weight_entry, Ideal.ofBits_def, Ideal.ofBits_zero_f32, zero_add]
  rfl

theorem idx_v23 (n k : Fin 8192) : Read.idx_main_v22 (Read.idx_main_v23 (ix2 n k)) = ix1 n :=
  funext fun a => Fin.ext (by match a with | ⟨0, _⟩ => rfl)

/-- The normalised weight at `(n, k)`. -/
theorem prob_entry (x0 x1 : FVec Ideal S8192x256 .f32) (x3 : IVec S8192x8192 1)
    (x4 : FVec Ideal S128x256 .f32) (x5 : FVec Ideal S128 .f32) (x6 : FVec Ideal S128x256 .f32) (x7 : FVec Ideal S128 .f32) (n k : Fin 8192) :
    Read.val_main_v24 (F := Ideal) x0 x1 x3 x4 x5 x6 x7 (ix2 n k)
      = Ideal.div (Ideal.exp (score x0 x1 x3 x4 x5 x6 x7 n k - mx (score x0 x1 x3 x4 x5 x6 x7 n) Finset.univ))
          (den (score x0 x1 x3 x4 x5 x6 x7 n) Finset.univ) := by
  rw [Read.val_main_v24_apply, Read.val_main_v23_apply, Read.val_main_v22_apply, idx_v23, den_entry, weight_entry]
  rfl

/-! ## The values and the result -/

theorem idx_v26 (j : Fin 8192) (c : Fin 256) : Read.idx_main_v25 (Read.idx_main_v26 (ix2 j c)) = ix1 j :=
  funext fun a => Fin.ext (by match a with | ⟨0, _⟩ => rfl)

/-- Column `c` of key `j`'s value. -/
theorem value_entry (x1 : FVec Ideal S8192x256 .f32) (x2 : FVec Ideal S8192 .f32) (j : Fin 8192) (c : Fin 256) :
    Read.val_main_v27 (F := Ideal) x1 x2 (ix2 j c) = value x1 x2 j c := by
  rw [Read.val_main_v27_apply, Read.val_main_v26_apply, Read.val_main_v25_apply, idx_v26]
  rfl

theorem lidx_v28 (n : Fin 8192) (c : Fin 256) (k : Fin 8192) : Read.lidx_main_v28 (ix2 n c) k = ix2 n k :=
  funext fun a => Fin.ext (by match a with | ⟨0, _⟩ => rfl | ⟨1, _⟩ => rfl)

theorem ridx_v28 (n : Fin 8192) (c : Fin 256) (k : Fin 8192) : Read.ridx_main_v28 (ix2 n c) k = ix2 k c :=
  funext fun a => Fin.ext (by match a with | ⟨0, _⟩ => rfl | ⟨1, _⟩ => rfl)

/-- The reference's result at `(n, c)` is the specification's function. -/
theorem ref_out (x0 x1 : FVec Ideal S8192x256 .f32) (x2 : FVec Ideal S8192 .f32) (x3 : IVec S8192x8192 1)
    (x4 : FVec Ideal S128x256 .f32) (x5 : FVec Ideal S128 .f32) (x6 : FVec Ideal S128x256 .f32) (x7 : FVec Ideal S128 .f32)
    (n : Fin 8192) (c : Fin 256) :
    Cert.ReferenceIdeal.Read.val_main_v28 (F := Ideal) x0 x1 x2 x3 x4 x5 x6 x7 (ix2 n c) = Cert.Attn.out x0 x1 x2 x3 x4 x5 x6 x7 n c := by
  rw [Read.val_main_v28_apply]
  simp only [lidx_v28, ridx_v28, prob_entry, value_entry]
  rfl

end Cert.Attn.Ref

end
-- ==== Proof.lean ====
/-
  A fused attention kernel against its reference, over the extended reals.

  Both programs project 8192 queries and 8192 keys to 128 coordinates (features times the transposed weights, plus a
  bias), score every query against every key by the inner product of the projections times one fixed scale, replace
  the score by one fixed finite number where the mask is set, take the softmax of each row of scores, and apply it to
  the keys' values (each key's feature row times its factor).

  The reference does this with whole arrays: a row's maximum, the exponentials of the differences from it, their sum,
  the quotients, and one product with the values.  The kernel never holds a whole row of scores.  It walks the keys in
  sixteen batches of 512, keeping for each query a running maximum, a normaliser and a weighted sum of the values; each
  batch raises the maximum, rescales the two sums by the exponential of the old maximum minus the new one, and adds the
  batch's own terms; after the last batch the weighted sum is divided by the normaliser.  Since
  exp (m - m') · exp (x - m) = exp (x - m') whenever x ≤ m ≤ m' are not +∞, the state after any number of batches is
  the closed form over the keys seen so far, so after the last batch the kernel holds (Σ e·v) / (Σ e) where the
  reference holds Σ (e / Σ e)·v.  These agree because every score is a real number: under the precondition every
  entry of the float arguments is real, and a masked score is a finite number, not -∞; so Σ e is a positive real and
  dividing by it distributes over the sum.  Changes of float format are the identity over the extended reals, and the
  matrix unit's products and the lane reductions are the plain sums the reference's operations are.

  The frames are the generated ones; the idealized kernel is the kernel's own text read over the extended reals, so the
  preservation claim has nothing to state.
-/
import proofs.«169537_j2972117369444_2_alg».proof.Defs
import proofs.«169537_j2972117369444_2_alg».proof.Proof.Gen.Kernel
import proofs.«169537_j2972117369444_2_alg».proof.Proof.Gen.Kernel.Skeleton
import proofs.«169537_j2972117369444_2_alg».proof.Proof.Gen.Kernel.Launch
import proofs.«169537_j2972117369444_2_alg».proof.Proof.Gen.Kernel.Points
import proofs.«169537_j2972117369444_2_alg».proof.Proof.Gen.Kernel.Frame
import proofs.«169537_j2972117369444_2_alg».proof.Proof.Gen.KernelIdeal
import proofs.«169537_j2972117369444_2_alg».proof.Proof.Gen.KernelIdeal.Skeleton
import proofs.«169537_j2972117369444_2_alg».proof.Proof.Gen.KernelIdeal.Launch
import proofs.«169537_j2972117369444_2_alg».proof.Proof.Gen.KernelIdeal.Points
import proofs.«169537_j2972117369444_2_alg».proof.Proof.Gen.KernelIdeal.Frame
import proofs.«169537_j2972117369444_2_alg».proof.Proof.Gen.ReferenceIdeal
import proofs.«169537_j2972117369444_2_alg».proof.Proof.Gen.Pre_finite_inputs
import proofs.«169537_j2972117369444_2_alg».proof.Proof.Gen.KernelIdeal.Value
import proofs.«169537_j2972117369444_2_alg».proof.Proof.Gen.ReferenceIdeal.Run
import proofs.«169537_j2972117369444_2_alg».proof.Proof.Gen.ReferenceIdeal.Read
import proofs.«169537_j2972117369444_2_alg».proof.Proof.KernelValue
import proofs.«169537_j2972117369444_2_alg».proof.Proof.RefSide
import Idealize.ShloMosaic.Adequacy
import Idealize.ShloMosaic.Init

noncomputable section

namespace Cert.Proof

open Idealize.ShloMosaic Idealize.ShloMosaic.ValueIdx Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification's function of the argument arrays: the kernel's by the
    closed form of its carried state after the last batch of each row of blocks, the reference's stage by stage; the
    argument arrays agree. -/
theorem algebraic : Cert.algebraic_KernelIdeal_ReferenceIdeal := by
  intro m ρ m' ρ' hpre hagree
  refine ⟨fun c => Cert.KernelIdeal.Final.G m c, Cert.KernelIdeal.Final.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  funext i
  obtain ⟨n, c', rfl⟩ : ∃ (n : Fin 8192) (c' : Fin 256), i = ix2 n c' := ⟨i 0, i 1, eq_ix2 i⟩
  exact Cert.Attn.Ref.ref_out _ _ _ _ _ _ _ _ n c'

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
